-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S100000x4 : Shape := ⟨2, ![100000, 4]⟩
abbrev S10000x32 : Shape := ⟨2, ![10000, 32]⟩
abbrev S1000x16 : Shape := ⟨2, ![1000, 16]⟩
abbrev S4x16 : Shape := ⟨2, ![4, 16]⟩
abbrev S16 : Shape := ⟨1, ![16]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x4 : S_.BroadcastsInDim S100000x4 (![] : Fin 0 → Fin S100000x4.rank)
  reducesTo_S100000x4_S_d0_1 : S100000x4.ReducesTo [0, 1] S_
  bcast_S_S10000x32 : S_.BroadcastsInDim S10000x32 (![] : Fin 0 → Fin S10000x32.rank)
  reducesTo_S10000x32_S_d0_1 : S10000x32.ReducesTo [0, 1] S_
  bcast_S_S1000x16 : S_.BroadcastsInDim S1000x16 (![] : Fin 0 → Fin S1000x16.rank)
  reducesTo_S1000x16_S_d0_1 : S1000x16.ReducesTo [0, 1] S_
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S128x128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x1 .f32 := Host.absf main_arg15
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg16
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg10 : FVec F S128 .f32) (main_arg11 : FVec F S128x128 .f32) (main_arg12 : FVec F S128x128 .f32) (main_arg13 : FVec F S128 .f32) (main_arg14 : FVec F S128x128 .f32) (main_arg15 : FVec F S128x1 .f32) (main_arg16 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_v48 main_v49 main_v50

def fn_part1 {F : FTy → Type} [FloatOps F] (main_arg7 : FVec F S4x16 .f32) (main_arg8 : FVec F S16 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x1 .f32) (main_arg16 : FVec F S1 .f32) (main_v13 : IVec S_ 1) (main_v16 : IVec S1000x16 1) : IVec S_ 1 :=
  let main_c_5 : IVec S_ 1 := constantI S_ 1 1#1
  let main_v17 : IVec S_ 1 := (fun x v => Host.reduce IntOp.andi x v reducesTo_S1000x16_S_d0_1 h_S_) main_v16 main_c_5
  let main_v18 : IVec S_ 1 := andi main_v13 main_v17
  let main_v19 : FVec F S4x16 .f32 := Host.absf main_arg7
  let main_cst_6 : FVec F S_ .f32 := constant S_ .f32 0x7F800000#32
  let main_v20 : FVec F S4x16 .f32 := broadcastInDim S4x16 ![] bcast_S_S4x16 main_cst_6
  let main_v21 : IVec S4x16 1 := cmpf .olt main_v19 main_v20
  let main_c_7 : IVec S_ 1 := constantI S_ 1 1#1
  let main_v22 : IVec S_ 1 := (fun x v => Host.reduce IntOp.andi x v reducesTo_S4x16_S_d0_1 h_S_) main_v21 main_c_7
  let main_v23 : IVec S_ 1 := andi main_v18 main_v22
  let main_v24 : FVec F S16 .f32 := Host.absf main_arg8
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S100000x64 .f32) (main_arg1 : IVec S2x1600000 32) (main_arg2 : IVec S100000 32) (main_arg3 : IVec S100000 32) (main_arg4 : FVec F S100000x4 .f32) (main_arg5 : FVec F S10000x32 .f32) (main_arg6 : FVec F S1000x16 .f32) (main_arg7 : FVec F S4x16 .f32) (main_arg8 : FVec F S16 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x1 .f32) (main_arg16 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x4 .f32 := Host.absf main_arg4
  let main_cst_0 : FVec F S_ .f32 := constant S_ .f32 0x7F800000#32
  let main_v5 : FVec F S100000x4 .f32 := broadcastInDim S100000x4 ![] bcast_S_S100000x4 main_cst_0
  let main_v6 : IVec S100000x4 1 := cmpf .olt main_v4 main_v5
  let main_c_1 : IVec S_ 1 := constantI S_ 1 1#1
  let main_v7 : IVec S_ 1 := (fun x v => Host.reduce IntOp.andi x v reducesTo_S100000x4_S_d0_1 h_S_) main_v6 main_c_1
  let main_v8 : IVec S_ 1 := andi main_v3 main_v7
  let main_v9 : FVec F S10000x32 .f32 := Host.absf main_arg5
  let main_cst_2 : FVec F S_ .f32 := constant S_ .f32 0x7F800000#32
  let main_v10 : FVec F S10000x32 .f32 := broadcastInDim S10000x32 ![] bcast_S_S10000x32 main_cst_2
  let main_v11 : IVec S10000x32 1 := cmpf .olt main_v9 main_v10
  let main_c_3 : IVec S_ 1 := constantI S_ 1 1#1
  let main_v12 : IVec S_ 1 := (fun x v => Host.reduce IntOp.andi x v reducesTo_S10000x32_S_d0_1 h_S_) main_v11 main_c_3
  let main_v13 : IVec S_ 1 := andi main_v8 main_v12
  let main_v14 : FVec F S1000x16 .f32 := Host.absf main_arg6
  let main_cst_4 : FVec F S_ .f32 := constant S_ .f32 0x7F800000#32
  let main_v15 : FVec F S1000x16 .f32 := broadcastInDim S1000x16 ![] bcast_S_S1000x16 main_cst_4
  let main_v16 : IVec S1000x16 1 := cmpf .olt main_v14 main_v15
  fn_part1 (F := F) main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S100000x4 : Shape := ⟨2, ![100000, 4]⟩
abbrev S10000x32 : Shape := ⟨2, ![10000, 32]⟩
abbrev S1000x16 : Shape := ⟨2, ![1000, 16]⟩
abbrev S4x16 : Shape := ⟨2, ![4, 16]⟩
abbrev S16 : Shape := ⟨1, ![16]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x32 : Shape := ⟨2, ![100000, 32]⟩
abbrev S100000x16 : Shape := ⟨2, ![100000, 16]⟩
abbrev S1x16 : Shape := ⟨2, ![1, 16]⟩
abbrev S100000x128 : Shape := ⟨2, ![100000, 128]⟩
abbrev S1600000x1 : Shape := ⟨2, ![1600000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S1x1 : Shape := ⟨2, ![1, 1]⟩

abbrev nBuf : Space → Nat
  | .hbm => 90
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S100000, .i32⟩
  | .hbm, ⟨4, _⟩ => ⟨S100000x4, .f32⟩
  | .hbm, ⟨5, _⟩ => ⟨S10000x32, .f32⟩
  | .hbm, ⟨6, _⟩ => ⟨S1000x16, .f32⟩
  | .hbm, ⟨7, _⟩ => ⟨S4x16, .f32⟩
  | .hbm, ⟨8, _⟩ => ⟨S16, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000x32, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x16, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S100000x128, .f32⟩
  | .hbm, ⟨44, _⟩ => ⟨S_, .f32⟩
  | .hbm, ⟨45, _⟩ => ⟨S1600000, .f32⟩
  | .hbm, ⟨46, _⟩ => ⟨S_, .f32⟩
  | .hbm, ⟨47, _⟩ => ⟨S100000, .f32⟩
  | .hbm, ⟨48, _⟩ => ⟨S1600000x1, .i32⟩
  | .hbm, ⟨49, _⟩ => ⟨S100000, .f32⟩
  | .hbm, ⟨50, _⟩ => ⟨S_, .f32⟩
  | .hbm, ⟨51, _⟩ => ⟨S100000, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S128x128, .bf16⟩
  | .hbm, ⟨71, _⟩ => ⟨S128x128, .bf16⟩
  | .hbm, ⟨72, _⟩ => ⟨S100000x128, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .f32⟩
  | .hbm, ⟨82, _⟩ => ⟨S_, .f32⟩
  | .hbm, ⟨83, _⟩ => ⟨S100000x128, .f32⟩
  | .hbm, ⟨84, _⟩ => ⟨S1600000x1, .i32⟩
  | .hbm, ⟨85, _⟩ => ⟨S100000x128, .f32⟩
  | .hbm, ⟨86, _⟩ => ⟨S128x128, .bf16⟩
  | .hbm, ⟨87, _⟩ => ⟨S128x128, .bf16⟩
  | .hbm, ⟨88, _⟩ => ⟨S128x1, .bf16⟩
  | .hbm, ⟨89, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128, .f32⟩
  | .local _ .vmem, ⟨8, _⟩ => ⟨S128x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .bf16⟩
  | .local _ .vmem, ⟨18, _⟩ => ⟨S128, .f32⟩
  | .local _ .vmem, ⟨19, _⟩ => ⟨S128x128, .bf16⟩
  | .local _ .vmem, ⟨20, _⟩ => ⟨S128x1, .bf16⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x64_S100000x32_S100000x16_S100000x16_S100000x128_d1 : Shape.Concatenates [S100000x64, S100000x32, S100000x16, S100000x16] S100000x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  gather_S10000x32_S100000x1_S100000x32_1_0_n_n_0_1_132_wf : GatherDims.WF S10000x32 S100000x1 S100000x32 [1] [0] [] [0] [] 1 ![1, 32]
  gather_S1000x16_S100000x1_S100000x16_1_0_n_n_0_1_116_wf : GatherDims.WF S1000x16 S100000x1 S100000x16 [1] [0] [] [0] [] 1 ![1, 16]
  dot_S100000x4_S4x16_S100000x16_1_0_0_1_n_n_wf : DotDims.WF S100000x4 S4x16 S100000x16 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .bf16 = 32 ∨ (Rect.block (s := S128x1) S128x1.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def gather_S10000x32_S100000x1_S100000x32_1_0_n_n_0_1_132 : GatherDims S10000x32 S100000x1 S100000x32 where
  offsetDims := [1]
  collapsedSliceDims := [0]
  operandBatchingDims := []
  startIndicesBatchingDims := []
  startIndexMap := [0]
  indexVectorDim := 1
  sliceSizes := ![1, 32]
  wf := gather_S10000x32_S100000x1_S100000x32_1_0_n_n_0_1_132_wf
def gather_S1000x16_S100000x1_S100000x16_1_0_n_n_0_1_116 : GatherDims S1000x16 S100000x1 S100000x16 where
  offsetDims := [1]
  collapsedSliceDims := [0]
  operandBatchingDims := []
  startIndicesBatchingDims := []
  startIndexMap := [0]
  indexVectorDim := 1
  sliceSizes := ![1, 16]
  wf := gather_S1000x16_S100000x1_S100000x16_1_0_n_n_0_1_116_wf
def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v41) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v58) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S100000x4 : Shape := ⟨2, ![100000, 4]⟩
abbrev S10000x32 : Shape := ⟨2, ![10000, 32]⟩
abbrev S1000x16 : Shape := ⟨2, ![1000, 16]⟩
abbrev S4x16 : Shape := ⟨2, ![4, 16]⟩
abbrev S16 : Shape := ⟨1, ![16]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x32 : Shape := ⟨2, ![100000, 32]⟩
abbrev S100000x16 : Shape := ⟨2, ![100000, 16]⟩
abbrev S1x16 : Shape := ⟨2, ![1, 16]⟩
abbrev S100000x128 : Shape := ⟨2, ![100000, 128]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S100000, .i32⟩
  | .hbm, ⟨4, _⟩ => ⟨S100000x4, .f32⟩
  | .hbm, ⟨5, _⟩ => ⟨S10000x32, .f32⟩
  | .hbm, ⟨6, _⟩ => ⟨S1000x16, .f32⟩
  | .hbm, ⟨7, _⟩ => ⟨S4x16, .f32⟩
  | .hbm, ⟨8, _⟩ => ⟨S16, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x1, .f32⟩
  | .hbm, ⟨16, _⟩ => ⟨S1, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S100000, .i32⟩
  | .hbm, ⟨23, _⟩ => ⟨S100000, .i1⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S100000, .i32⟩
  | .hbm, ⟨28, _⟩ => ⟨S100000x1, .i32⟩
  | .hbm, ⟨29, _⟩ => ⟨S100000x32, .f32⟩
  | .hbm, ⟨30, _⟩ => ⟨S_, .i32⟩
  | .hbm, ⟨31, _⟩ => ⟨S100000, .i32⟩
  | .hbm, ⟨32, _⟩ => ⟨S100000, .i1⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S100000, .i32⟩
  | .hbm, ⟨37, _⟩ => ⟨S100000x1, .i32⟩
  | .hbm, ⟨38, _⟩ => ⟨S100000x16, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S1600000, .f32⟩
  | .hbm, ⟨59, _⟩ => ⟨S_, .f32⟩
  | .hbm, ⟨60, _⟩ => ⟨S100000, .f32⟩
  | .hbm, ⟨61, _⟩ => ⟨S1600000x1, .i32⟩
  | .hbm, ⟨62, _⟩ => ⟨S100000, .f32⟩
  | .hbm, ⟨63, _⟩ => ⟨S_, .f32⟩
  | .hbm, ⟨64, _⟩ => ⟨S100000, .f32⟩
  | .hbm, ⟨65, _⟩ => ⟨S100000, .f32⟩
  | .hbm, ⟨66, _⟩ => ⟨S100000x1, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S1600000, .f32⟩
  | .hbm, ⟨93, _⟩ => ⟨S_, .f32⟩
  | .hbm, ⟨94, _⟩ => ⟨S100000, .f32⟩
  | .hbm, ⟨95, _⟩ => ⟨S1600000x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S_, .f32⟩
  | .hbm, ⟨110, _⟩ => ⟨S100000x128, .f32⟩
  | .hbm, ⟨111, _⟩ => ⟨S100000x128, .f32⟩
  | .hbm, ⟨112, _⟩ => ⟨S100000x1, .f32⟩
  | .hbm, ⟨113, _⟩ => ⟨S1x1, .f32⟩
  | .hbm, ⟨114, _⟩ => ⟨S100000x1, .f32⟩
  | .hbm, ⟨115, _⟩ => ⟨S100000x1, .f32⟩
  | .hbm, ⟨116, _⟩ => ⟨S100000x1, .f32⟩
  | .hbm, ⟨117, _⟩ => ⟨S100000x1, .f32⟩
  | .hbm, ⟨118, _⟩ => ⟨S_, .f32⟩
  | .hbm, ⟨119, _⟩ => ⟨S100000x1, .f32⟩
  | .hbm, ⟨120, _⟩ => ⟨S100000x1, .f32⟩
  | .hbm, ⟨121, _⟩ => ⟨S_, .f32⟩
  | .hbm, ⟨122, _⟩ => ⟨S100000x1, .f32⟩
  | .hbm, ⟨123, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call0_cst : Ref sig .tc := ⟨.hbm, 75, rfl⟩
abbrev main_call0_v0 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_cst_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call1_cst : Ref sig .tc := ⟨.hbm, 109, rfl⟩
abbrev main_call1_v0 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_14 : Ref sig .tc := ⟨.hbm, 118, rfl⟩
abbrev main_v81 : Ref sig .tc := ⟨.hbm, 119, rfl⟩
abbrev main_v82 : Ref sig .tc := ⟨.hbm, 120, rfl⟩
abbrev main_cst_15 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S100000_S100000x1_0 : S100000.BroadcastsInDim S100000x1 (![0] : Fin 1 → Fin S100000x1.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S100000x64_S100000x32_S100000x16_S100000x16_S100000x128_d1 : Shape.Concatenates [S100000x64, S100000x32, S100000x16, S100000x16] S100000x128 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S10000x32_S100000x1_S100000x32_1_0_n_n_0_1_132_wf : GatherDims.WF S10000x32 S100000x1 S100000x32 [1] [0] [] [0] [] 1 ![1, 32]
  gather_S1000x16_S100000x1_S100000x16_1_0_n_n_0_1_116_wf : GatherDims.WF S1000x16 S100000x1 S100000x16 [1] [0] [] [0] [] 1 ![1, 16]
  dot_S100000x4_S4x16_S100000x16_1_0_0_1_n_n_wf : DotDims.WF S100000x4 S4x16 S100000x16 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S10000x32_S100000x1_S100000x32_1_0_n_n_0_1_132 : GatherDims S10000x32 S100000x1 S100000x32 where
  offsetDims := [1]
  collapsedSliceDims := [0]
  operandBatchingDims := []
  startIndicesBatchingDims := []
  startIndexMap := [0]
  indexVectorDim := 1
  sliceSizes := ![1, 32]
  wf := gather_S10000x32_S100000x1_S100000x32_1_0_n_n_0_1_132_wf
def gather_S1000x16_S100000x1_S100000x16_1_0_n_n_0_1_116 : GatherDims S1000x16 S100000x1 S100000x16 where
  offsetDims := [1]
  collapsedSliceDims := [0]
  operandBatchingDims := []
  startIndicesBatchingDims := []
  startIndexMap := [0]
  indexVectorDim := 1
  sliceSizes := ![1, 16]
  wf := gather_S1000x16_S100000x1_S100000x16_1_0_n_n_0_1_116_wf
def dot_S100000x4_S4x16_S100000x16_1_0_0_1_n_n : DotDims S100000x4 S4x16 S100000x16 where
  lhsContracting := [1]
  rhsContracting := [0]
  lhsNonContracting := [0]
  rhsNonContracting := [1]
  lhsBatch := []
  rhsBatch := []
  wf := dot_S100000x4_S4x16_S100000x16_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KRegion0.lean ====
/-
  Region 0 of the program: one rectified graph layer on a block of 5000 rows, as the pipeline runs it at one grid point.

  The pipeline hands the body one staging buffer per window. Each input window's buffer holds the block of its array
  that the window's index map selects at the point (fetched there, or still in place from an earlier point when the
  index has not moved). The body reads the 6 input buffers whole, computes, and overwrites the output buffer whole with
  one value: the payload of its single store, a function of the 6 blocks alone. What the output buffer held before
  is read once and never used. So after the body every input buffer is as it was, and the output buffer holds that
  function of the input blocks; this is the per-point proof data of the region, stated for any contents V of the
  arrays at the region's entry.
-/
import proofs.«101540_j77687368450080_2_alg».proof.Proof.Gen.Kernel.Launch
import proofs.«101540_j77687368450080_2_alg».proof.Proof.Gen.Kernel.Skeleton
import proofs.«101540_j77687368450080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t selects, read off the array's contents at the region's entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has V's array and leaves the block in place finds the block in the buffer at
    every point, whether the point fetches it or the index has stayed where it was. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1: whatever proof data has V's array and leaves the block in place finds the block in the buffer at
    every point, whether the point fetches it or the index has stayed where it was. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2: whatever proof data has V's array and leaves the block in place finds the block in the buffer at
    every point, whether the point fetches it or the index has stayed where it was. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3: whatever proof data has V's array and leaves the block in place finds the block in the buffer at
    every point, whether the point fetches it or the index has stayed where it was. -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4: whatever proof data has V's array and leaves the block in place finds the block in the buffer at
    every point, whether the point fetches it or the index has stayed where it was. -/
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5: whatever proof data has V's array and leaves the block in place finds the block in the buffer at
    every point, whether the point fetches it or the index has stayed where it was. -/
theorem found0_5 {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- The output buffer after the body: its one store covers it, with the payload of the 6 input buffers read whole. -/
def stored0 (x0 : Vec F S5000x128 .f32) (x1 : Vec F S5000x1 .f32) (x2 : Vec F S5000x128 .f32) (x3 : Vec F S128x128 .bf16) (x4 : Vec F S128 .f32) (x5 : Vec F S128x128 .bf16) : Vec F S5000x128 .f32 :=
  View.canon [⟨(Rect.unit (s := S5000x128) ![0, 0] S5000x128.size inb_S5000x128_S5000x128_0_0), k0_pay1 (View.ld x0 (Rect.unit (s := S5000x128) ![0, 0] S5000x128.size inb_S5000x128_S5000x128_0_0)) (View.ld x1 (Rect.unit (s := S5000x1) ![0, 0] S5000x1.size inb_S5000x1_S5000x1_0_0)) (View.ld x2 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0))⟩]

/-- The one store's rectangle is the whole buffer. -/
theorem tiles0 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole buffers: the inputs held at x0 … x5, the output at anything. It ends with the inputs as they were
    and the output at `stored0` of them. -/
theorem body_triple0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S5000x128 .f32) (harg7 : arg7.IsWhole)
    (x0 : Vec F S5000x128 .f32) (x1 : Vec F S5000x1 .f32) (x2 : Vec F S5000x128 .f32) (x3 : Vec F S128x128 .bf16) (x4 : Vec F S128 .f32) (x5 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored0 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tiles0 _)

/-- The region's proof data on core c: the arrays as the region finds them; after the body at point t every input's
    buffer at its block, the output's at `stored0` of the blocks; nothing else held, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => stored0 (blk0 V c 0 t) (blk0 V c 1 t) (blk0 V c 2 t) (blk0 V c 3 t) (blk0 V c 4 t) (blk0 V c 5 t)
  Φ _ := Pipeline.ΦA spec0 c
  q _ := fullShare
  owed _ := 0

theorem arr0 (c : Dev nD) (w : Fin cfg0.W) : (dat0 V c).A w = V c (Pipeline.arrRef spec0 w) := by
  dsimp only [dat0]

theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) : (dat0 V c).after 3 t = blk0 V c 3 t := by dsimp only [dat0]
theorem left0_4 (c : Dev nD) (t : Fin cfg0.N) : (dat0 V c).after 4 t = blk0 V c 4 t := by dsimp only [dat0]
theorem left0_5 (c : Dev nD) (t : Fin cfg0.N) : (dat0 V c).after 5 t = blk0 V c 5 t := by dsimp only [dat0]
theorem left0_6 (c : Dev nD) (t : Fin cfg0.N) : (dat0 V c).after 6 t = stored0 (blk0 V c 0 t) (blk0 V c 1 t) (blk0 V c 2 t) (blk0 V c 3 t) (blk0 V c 4 t) (blk0 V c 5 t) := by dsimp only [dat0]

theorem held0_0 (c : Dev nD) (t : Fin cfg0.N) (d) : (dat0 V c).before 0 t d = blk0 V c 0 t :=
  found0_0 V (dat0 V c) (arr0 V c 0) (left0_0 V c) t d
theorem held0_1 (c : Dev nD) (t : Fin cfg0.N) (d) : (dat0 V c).before 1 t d = blk0 V c 1 t :=
  found0_1 V (dat0 V c) (arr0 V c 1) (left0_1 V c) t d
theorem held0_2 (c : Dev nD) (t : Fin cfg0.N) (d) : (dat0 V c).before 2 t d = blk0 V c 2 t :=
  found0_2 V (dat0 V c) (arr0 V c 2) (left0_2 V c) t d
theorem held0_3 (c : Dev nD) (t : Fin cfg0.N) (d) : (dat0 V c).before 3 t d = blk0 V c 3 t :=
  found0_3 V (dat0 V c) (arr0 V c 3) (left0_3 V c) t d
theorem held0_4 (c : Dev nD) (t : Fin cfg0.N) (d) : (dat0 V c).before 4 t d = blk0 V c 4 t :=
  found0_4 V (dat0 V c) (arr0 V c 4) (left0_4 V c) t d
theorem held0_5 (c : Dev nD) (t : Fin cfg0.N) (d) : (dat0 V c).before 5 t d = blk0 V c 5 t :=
  found0_5 V (dat0 V c) (arr0 V c 5) (left0_5 V c) t d

/-- What the body is entered with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input buffer holds its block, so the triple applies; the rest passes through. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5]
  rw [show (dat0 V c).Φ t.succ = (dat0 V c).Φ t.castSucc from rfl,
    show (dat0 V c).owesAt () t.succ = (dat0 V c).owesAt () t.castSucc from rfl,
    left0_0, left0_1, left0_2, left0_3, left0_4, left0_5, left0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple0 c Set.univ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem obligation0 (c : Dev nD) : BodyObligation (dat0 (F := F) V c) (defs₀ (F := F)) Variants.none () Set.univ := fun t => by
  rw [bigSep_W0, bigSep_W0]
  exact body_at0 V c t

end Cert.Kernel.Regions

end
-- ==== Proof.KRegion1.lean ====
/-
  Region 1 of the program: the second rectified layer and the logistic scores on a block of 5000 rows, as the pipeline runs it at one grid point.

  The pipeline hands the body one staging buffer per window. Each input window's buffer holds the block of its array
  that the window's index map selects at the point (fetched there, or still in place from an earlier point when the
  index has not moved). The body reads the 8 input buffers whole, computes, and overwrites the output buffer whole with
  one value: the payload of its single store, a function of the 8 blocks alone. What the output buffer held before
  is read once and never used. So after the body every input buffer is as it was, and the output buffer holds that
  function of the input blocks; this is the per-point proof data of the region, stated for any contents V of the
  arrays at the region's entry.
-/
import proofs.«101540_j77687368450080_2_alg».proof.Proof.Gen.Kernel.Launch
import proofs.«101540_j77687368450080_2_alg».proof.Proof.Gen.Kernel.Skeleton
import proofs.«101540_j77687368450080_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t selects, read off the array's contents at the region's entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has V's array and leaves the block in place finds the block in the buffer at
    every point, whether the point fetches it or the index has stayed where it was. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1: whatever proof data has V's array and leaves the block in place finds the block in the buffer at
    every point, whether the point fetches it or the index has stayed where it was. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2: whatever proof data has V's array and leaves the block in place finds the block in the buffer at
    every point, whether the point fetches it or the index has stayed where it was. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3: whatever proof data has V's array and leaves the block in place finds the block in the buffer at
    every point, whether the point fetches it or the index has stayed where it was. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4: whatever proof data has V's array and leaves the block in place finds the block in the buffer at
    every point, whether the point fetches it or the index has stayed where it was. -/
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5: whatever proof data has V's array and leaves the block in place finds the block in the buffer at
    every point, whether the point fetches it or the index has stayed where it was. -/
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6: whatever proof data has V's array and leaves the block in place finds the block in the buffer at
    every point, whether the point fetches it or the index has stayed where it was. -/
theorem found1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Input window 7: whatever proof data has V's array and leaves the block in place finds the block in the buffer at
    every point, whether the point fetches it or the index has stayed where it was. -/
theorem found1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- The output buffer after the body: its one store covers it, with the payload of the 8 input buffers read whole. -/
def stored1 (x0 : Vec F S5000x128 .f32) (x1 : Vec F S5000x1 .f32) (x2 : Vec F S5000x128 .f32) (x3 : Vec F S128x128 .bf16) (x4 : Vec F S128 .f32) (x5 : Vec F S128x128 .bf16) (x6 : Vec F S128x1 .bf16) (x7 : Vec F S1 .f32) : Vec F S5000x1 .f32 :=
  View.canon [⟨(Rect.unit (s := S5000x1) ![0, 0] S5000x1.size inb_S5000x1_S5000x1_0_0), k1_pay1 (View.ld x0 (Rect.unit (s := S5000x128) ![0, 0] S5000x128.size inb_S5000x128_S5000x128_0_0)) (View.ld x1 (Rect.unit (s := S5000x1) ![0, 0] S5000x1.size inb_S5000x1_S5000x1_0_0)) (View.ld x2 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128x1) ![0, 0] S128x1.size inb_S128x1_S128x1_0_0)) (View.ld x7 (Rect.unit (s := S1) ![0] S1.size inb_S1_S1_0))⟩]

/-- The one store's rectangle is the whole buffer. -/
theorem tiles1 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole buffers: the inputs held at x0 … x7, the output at anything. It ends with the inputs as they were
    and the output at `stored1` of them. -/
theorem body_triple1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128x1 .bf16) (harg7 : arg7.IsWhole) (arg8 : Memref sig .tc .vmem S1 .f32) (harg8 : arg8.IsWhole) (arg9 : Memref sig .tc .vmem S5000x1 .f32) (harg9 : arg9.IsWhole)
    (x0 : Vec F S5000x128 .f32) (x1 : Vec F S5000x1 .f32) (x2 : Vec F S5000x128 .f32) (x3 : Vec F S128x128 .bf16) (x4 : Vec F S128 .f32) (x5 : Vec F S128x128 .bf16) (x6 : Vec F S128x1 .bf16) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (stored1 x0 x1 x2 x3 x4 x5 x6 x7)) -∗ K ⟨⟩))
      ⊢ wp frame (wpE (defs₀ (F := F)) Variants.none c none) E (cc1__sage2_cls_kernel i arg1 harg1 arg2 harg2 arg3 harg3 arg4 harg4 arg5 harg5 arg6 harg6 arg7 harg7 arg8 harg8 arg9 harg9) K := by
  simp only [cc1__sage2_cls_kernel_eq_skeleton]; unfold cc1__sage2_cls_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (tiles1 _)

/-- The region's proof data on core c: the arrays as the region finds them; after the body at point t every input's
    buffer at its block, the output's at `stored1` of the blocks; nothing else held, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => stored1 (blk1 V c 0 t) (blk1 V c 1 t) (blk1 V c 2 t) (blk1 V c 3 t) (blk1 V c 4 t) (blk1 V c 5 t) (blk1 V c 6 t) (blk1 V c 7 t)
  Φ _ := Pipeline.ΦA spec1 c
  q _ := fullShare
  owed _ := 0

theorem arr1 (c : Dev nD) (w : Fin cfg1.W) : (dat1 V c).A w = V c (Pipeline.arrRef spec1 w) := by
  dsimp only [dat1]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = blk1 V c 4 t := by dsimp only [dat1]
theorem left1_5 (c : Dev nD) (t : Fin cfg1.N) : (dat1 V c).after 5 t = blk1 V c 5 t := by dsimp only [dat1]
theorem left1_6 (c : Dev nD) (t : Fin cfg1.N) : (dat1 V c).after 6 t = blk1 V c 6 t := by dsimp only [dat1]
theorem left1_7 (c : Dev nD) (t : Fin cfg1.N) : (dat1 V c).after 7 t = blk1 V c 7 t := by dsimp only [dat1]
theorem left1_8 (c : Dev nD) (t : Fin cfg1.N) : (dat1 V c).after 8 t = stored1 (blk1 V c 0 t) (blk1 V c 1 t) (blk1 V c 2 t) (blk1 V c 3 t) (blk1 V c 4 t) (blk1 V c 5 t) (blk1 V c 6 t) (blk1 V c 7 t) := by dsimp only [dat1]

theorem held1_0 (c : Dev nD) (t : Fin cfg1.N) (d) : (dat1 V c).before 0 t d = blk1 V c 0 t :=
  found1_0 V (dat1 V c) (arr1 V c 0) (left1_0 V c) t d
theorem held1_1 (c : Dev nD) (t : Fin cfg1.N) (d) : (dat1 V c).before 1 t d = blk1 V c 1 t :=
  found1_1 V (dat1 V c) (arr1 V c 1) (left1_1 V c) t d
theorem held1_2 (c : Dev nD) (t : Fin cfg1.N) (d) : (dat1 V c).before 2 t d = blk1 V c 2 t :=
  found1_2 V (dat1 V c) (arr1 V c 2) (left1_2 V c) t d
theorem held1_3 (c : Dev nD) (t : Fin cfg1.N) (d) : (dat1 V c).before 3 t d = blk1 V c 3 t :=
  found1_3 V (dat1 V c) (arr1 V c 3) (left1_3 V c) t d
theorem held1_4 (c : Dev nD) (t : Fin cfg1.N) (d) : (dat1 V c).before 4 t d = blk1 V c 4 t :=
  found1_4 V (dat1 V c) (arr1 V c 4) (left1_4 V c) t d
theorem held1_5 (c : Dev nD) (t : Fin cfg1.N) (d) : (dat1 V c).before 5 t d = blk1 V c 5 t :=
  found1_5 V (dat1 V c) (arr1 V c 5) (left1_5 V c) t d
theorem held1_6 (c : Dev nD) (t : Fin cfg1.N) (d) : (dat1 V c).before 6 t d = blk1 V c 6 t :=
  found1_6 V (dat1 V c) (arr1 V c 6) (left1_6 V c) t d
theorem held1_7 (c : Dev nD) (t : Fin cfg1.N) (d) : (dat1 V c).before 7 t d = blk1 V c 7 t :=
  found1_7 V (dat1 V c) (arr1 V c 7) (left1_7 V c) t d

/-- What the body is entered with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: every input buffer holds its block, so the triple applies; the rest passes through. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4, held1_5, held1_6, held1_7]
  rw [show (dat1 V c).Φ t.succ = (dat1 V c).Φ t.castSucc from rfl,
    show (dat1 V c).owesAt () t.succ = (dat1 V c).owesAt () t.castSucc from rfl,
    left1_0, left1_1, left1_2, left1_3, left1_4, left1_5, left1_6, left1_7, left1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the region, at every point. -/
theorem obligation1 (c : Dev nD) : BodyObligation (dat1 (F := F) V c) (defs₀ (F := F)) Variants.none () Set.univ := fun t => by
  rw [bigSep_W1, bigSep_W1]
  exact body_at1 V c t

end Cert.Kernel.Regions

end
-- ==== Proof.KRun.lean ====
/-
  The whole run of the program: @main is a stretch of host operations, region 0, a second stretch of host operations,
  region 1. The contents of the unscoped buffers are followed through these four items as a fold from the launch
  memory: a host stretch applies its operations; a region leaves each of its windows' arrays at what the pipeline's
  write-backs make of it (an input array as entered, the output array block by block) and every other buffer as
  entered. The run ends with every unscoped buffer at the last stage of this fold. No host operation and no region
  writes an argument array, so each argument reads back through the fold as launched: that is the program's frame. The
  result array is read off the same fold by the modules that compute its value.
-/
import proofs.«101540_j77687368450080_2_alg».proof.Proof.KRegion0
import proofs.«101540_j77687368450080_2_alg».proof.Proof.KRegion1
import proofs.«101540_j77687368450080_2_alg».proof.Proof.Gen.Kernel.Regions

set_option maxRecDepth 16384

noncomputable section

namespace Cert.Kernel.Regions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the items of @main -/

/-- Core c's buffers at launch. -/
abbrev W0 : Dev nD → Valuation τ sig (Elt F) := fun c b => m (c, b)
/-- After the first host stretch: what region 0 is entered with. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the write-backs leave, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit_arr0 (c : Dev nD) (w : Fin cfg0.W) : (dat0 (V1 m) c).arrAt w cfg0.N = V2 m c (Pipeline.arrRef spec0 w) :=
  (W2_arr m c w).symm
theorem exit_rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: what region 1 is entered with. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its arrays at what the write-backs leave, the rest as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit_arr1 (c : Dev nD) (w : Fin cfg1.W) : (dat1 (V3 m) c).arrAt w cfg1.N = V4 m c (Pipeline.arrRef spec1 w) :=
  (W4_arr m c w).symm
theorem exit_rest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## Every argument array reads back through the fold as launched -/

theorem kept_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem kept_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem kept_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem kept_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem kept_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem kept_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem kept_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem kept_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem kept_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem kept_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem kept_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := (W2_arr m c 4).trans (((dat0 (V1 m) c).arrAt_in 4 rfl _).trans (arr0 (V1 m) c 4))
    _ = W0 m c (Proc.devRef .tc main_arg10) := StableHlo.after_of_writes_sub hostOps0 _ hostOps0_writes (by decide)
    _ = m ((c : Thread nD τ).loc main_arg10) := rfl
theorem kept_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem kept_main_arg12 (c : Dev nD) : W4 m c (Proc.devRef .tc main_arg12) = m ((c : Thread nD τ).loc main_arg12) :=
  calc W4 m c (Proc.devRef .tc main_arg12)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl
theorem kept_main_arg13 (c : Dev nD) : W4 m c (Proc.devRef .tc main_arg13) = m ((c : Thread nD τ).loc main_arg13) :=
  calc W4 m c (Proc.devRef .tc main_arg13)
    _ = W3 m c (Proc.devRef .tc main_arg13) := (W4_arr m c 4).trans (((dat1 (V3 m) c).arrAt_in 4 rfl _).trans (arr1 (V3 m) c 4))
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl
theorem kept_main_arg14 (c : Dev nD) : W4 m c (Proc.devRef .tc main_arg14) = m ((c : Thread nD τ).loc main_arg14) :=
  calc W4 m c (Proc.devRef .tc main_arg14)
    _ = W3 m c (Proc.devRef .tc main_arg14) := W4_of_ne m c main_arg14 (by decide)
    _ = W2 m c (Proc.devRef .tc main_arg14) := StableHlo.after_of_writes_sub hostOps1 _ hostOps1_writes (by decide)
    _ = W1 m c (Proc.devRef .tc main_arg14) := W2_of_ne m c main_arg14 (by decide)
    _ = W0 m c (Proc.devRef .tc main_arg14) := StableHlo.after_of_writes_sub hostOps0 _ hostOps0_writes (by decide)
    _ = m ((c : Thread nD τ).loc main_arg14) := rfl
theorem kept_main_arg15 (c : Dev nD) : W4 m c (Proc.devRef .tc main_arg15) = m ((c : Thread nD τ).loc main_arg15) :=
  calc W4 m c (Proc.devRef .tc main_arg15)
    _ = W3 m c (Proc.devRef .tc main_arg15) := W4_of_ne m c main_arg15 (by decide)
    _ = W2 m c (Proc.devRef .tc main_arg15) := StableHlo.after_of_writes_sub hostOps1 _ hostOps1_writes (by decide)
    _ = W1 m c (Proc.devRef .tc main_arg15) := W2_of_ne m c main_arg15 (by decide)
    _ = W0 m c (Proc.devRef .tc main_arg15) := StableHlo.after_of_writes_sub hostOps0 _ hostOps0_writes (by decide)
    _ = m ((c : Thread nD τ).loc main_arg15) := rfl
theorem kept_main_arg16 (c : Dev nD) : W4 m c (Proc.devRef .tc main_arg16) = m ((c : Thread nD τ).loc main_arg16) :=
  calc W4 m c (Proc.devRef .tc main_arg16)
    _ = W3 m c (Proc.devRef .tc main_arg16) := (W4_arr m c 7).trans (((dat1 (V3 m) c).arrAt_in 7 rfl _).trans (arr1 (V3 m) c 7))
    _ = W2 m c (Proc.devRef .tc main_arg16) := StableHlo.after_of_writes_sub hostOps1 _ hostOps1_writes (by decide)
    _ = W1 m c (Proc.devRef .tc main_arg16) := W2_of_ne m c main_arg16 (by decide)
    _ = W0 m c (Proc.devRef .tc main_arg16) := StableHlo.after_of_writes_sub hostOps0 _ hostOps0_writes (by decide)
    _ = m ((c : Thread nD τ).loc main_arg16) := rfl

/-! ## The proof data of both pipelines and the thread state -/

abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers every item carries the core's generator register at some state and the core owing nothing. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the core owing nothing. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment of @main. It is entered with every unscoped buffer at the contents before it; its windows'
    arrays are split out of those buffers, the pipeline runs over them with the body obligation, and at the exit the
    arrays go back at what the write-backs leave, every other buffer as entered. The generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main. It is entered with every unscoped buffer at the contents before it; its windows'
    arrays are split out of those buffers, the pipeline runs over them with the body obligation, and at the exit the
    arrays go back at what the write-backs leave, every other buffer as entered. The generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit_arr1 m c) (exit_rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

set_option backward.isDefEq.respectTransparency.types false in
/-- Every weakly fair execution of @main from memory m with zero counters terminates, nothing faulting, and ends with
    every unscoped buffer of every core at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c),
     (h c _ (mem_uc main_arg8 (by decide))).trans (kept_main_arg8 m c),
     (h c _ (mem_uc main_arg9 (by decide))).trans (kept_main_arg9 m c),
     (h c _ (mem_uc main_arg10 (by decide))).trans (kept_main_arg10 m c),
     (h c _ (mem_uc main_arg11 (by decide))).trans (kept_main_arg11 m c),
     (h c _ (mem_uc main_arg12 (by decide))).trans (kept_main_arg12 m c),
     (h c _ (mem_uc main_arg13 (by decide))).trans (kept_main_arg13 m c),
     (h c _ (mem_uc main_arg14 (by decide))).trans (kept_main_arg14 m c),
     (h c _ (mem_uc main_arg15 (by decide))).trans (kept_main_arg15 m c),
     (h c _ (mem_uc main_arg16 (by decide))).trans (kept_main_arg16 m c)⟩)
    (run_all m ρ)

end Cert.Kernel.Regions

end
-- ==== Proof.KIRegion0.lean ====
/-
  Region 0 of the program: one rectified graph layer on a block of 5000 rows, as the pipeline runs it at one grid point.

  The pipeline hands the body one staging buffer per window. Each input window's buffer holds the block of its array
  that the window's index map selects at the point (fetched there, or still in place from an earlier point when the
  index has not moved). The body reads the 6 input buffers whole, computes, and overwrites the output buffer whole with
  one value: the payload of its single store, a function of the 6 blocks alone. What the output buffer held before
  is read once and never used. So after the body every input buffer is as it was, and the output buffer holds that
  function of the input blocks; this is the per-point proof data of the region, stated for any contents V of the
  arrays at the region's entry.
-/
import proofs.«101540_j77687368450080_2_alg».proof.Proof.Gen.KernelIdeal.Launch
import proofs.«101540_j77687368450080_2_alg».proof.Proof.Gen.KernelIdeal.Skeleton
import proofs.«101540_j77687368450080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t selects, read off the array's contents at the region's entry. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever proof data has V's array and leaves the block in place finds the block in the buffer at
    every point, whether the point fetches it or the index has stayed where it was. -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1: whatever proof data has V's array and leaves the block in place finds the block in the buffer at
    every point, whether the point fetches it or the index has stayed where it was. -/
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2: whatever proof data has V's array and leaves the block in place finds the block in the buffer at
    every point, whether the point fetches it or the index has stayed where it was. -/
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3: whatever proof data has V's array and leaves the block in place finds the block in the buffer at
    every point, whether the point fetches it or the index has stayed where it was. -/
theorem found0_3 {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4: whatever proof data has V's array and leaves the block in place finds the block in the buffer at
    every point, whether the point fetches it or the index has stayed where it was. -/
theorem found0_4 {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5: whatever proof data has V's array and leaves the block in place finds the block in the buffer at
    every point, whether the point fetches it or the index has stayed where it was. -/
theorem found0_5 {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- The output buffer after the body: its one store covers it, with the payload of the 6 input buffers read whole. -/
def stored0 (x0 : Vec F S5000x128 .f32) (x1 : Vec F S5000x1 .f32) (x2 : Vec F S5000x128 .f32) (x3 : Vec F S128x128 .bf16) (x4 : Vec F S128 .f32) (x5 : Vec F S128x128 .bf16) : Vec F S5000x128 .f32 :=
  View.canon [⟨(Rect.unit (s := S5000x128) ![0, 0] S5000x128.size inb_S5000x128_S5000x128_0_0), k0_pay1 (View.ld x0 (Rect.unit (s := S5000x128) ![0, 0] S5000x128.size inb_S5000x128_S5000x128_0_0)) (View.ld x1 (Rect.unit (s := S5000x1) ![0, 0] S5000x1.size inb_S5000x1_S5000x1_0_0)) (View.ld x2 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0))⟩]

/-- The one store's rectangle is the whole buffer. -/
theorem tiles0 (p0 : Vec F S5000x128 .f32) (y : S5000x128.Idx) :
    ∃ pc ∈ ([⟨(Rect.unit (s := S5000x128) ![0, 0] S5000x128.size inb_S5000x128_S5000x128_0_0), p0⟩] : List (View.Piece (Elt F) S5000x128 .f32)), y ∈ pc.1.set :=
  View.cover_of_tiled [⟨(Rect.unit (s := S5000x128) ![0, 0] S5000x128.size inb_S5000x128_S5000x128_0_0), p0⟩] S5000x128.size (by rfl) y

set_option maxHeartbeats 1000000 in
/-- The body on whole buffers: the inputs held at x0 … x5, the output at anything. It ends with the inputs as they were
    and the output at `stored0` of them. -/
theorem body_triple0 (c : Dev nD) (E : Set ℕ) (i : grid0.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S5000x128 .f32) (harg7 : arg7.IsWhole)
    (x0 : Vec F S5000x128 .f32) (x1 : Vec F S5000x1 .f32) (x2 : Vec F S5000x128 .f32) (x3 : Vec F S128x128 .bf16) (x4 : Vec F S128 .f32) (x5 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (stored0 x0 x1 x2 x3 x4 x5)) -∗ K ⟨⟩))
      ⊢ wp frame (wpE (defs₀ (F := F)) Variants.none c none) E (cc0__sage_kernel i arg1 harg1 arg2 harg2 arg3 harg3 arg4 harg4 arg5 harg5 arg6 harg6 arg7 harg7) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tiles0 _)

/-- The region's proof data on core c: the arrays as the region finds them; after the body at point t every input's
    buffer at its block, the output's at `stored0` of the blocks; nothing else held, nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => stored0 (blk0 V c 0 t) (blk0 V c 1 t) (blk0 V c 2 t) (blk0 V c 3 t) (blk0 V c 4 t) (blk0 V c 5 t)
  Φ _ := Pipeline.ΦA spec0 c
  q _ := fullShare
  owed _ := 0

theorem arr0 (c : Dev nD) (w : Fin cfg0.W) : (dat0 V c).A w = V c (Pipeline.arrRef spec0 w) := by
  dsimp only [dat0]

theorem left0_0 (c : Dev nD) (t : Fin cfg0.N) : (dat0 V c).after 0 t = blk0 V c 0 t := by dsimp only [dat0]
theorem left0_1 (c : Dev nD) (t : Fin cfg0.N) : (dat0 V c).after 1 t = blk0 V c 1 t := by dsimp only [dat0]
theorem left0_2 (c : Dev nD) (t : Fin cfg0.N) : (dat0 V c).after 2 t = blk0 V c 2 t := by dsimp only [dat0]
theorem left0_3 (c : Dev nD) (t : Fin cfg0.N) : (dat0 V c).after 3 t = blk0 V c 3 t := by dsimp only [dat0]
theorem left0_4 (c : Dev nD) (t : Fin cfg0.N) : (dat0 V c).after 4 t = blk0 V c 4 t := by dsimp only [dat0]
theorem left0_5 (c : Dev nD) (t : Fin cfg0.N) : (dat0 V c).after 5 t = blk0 V c 5 t := by dsimp only [dat0]
theorem left0_6 (c : Dev nD) (t : Fin cfg0.N) : (dat0 V c).after 6 t = stored0 (blk0 V c 0 t) (blk0 V c 1 t) (blk0 V c 2 t) (blk0 V c 3 t) (blk0 V c 4 t) (blk0 V c 5 t) := by dsimp only [dat0]

theorem held0_0 (c : Dev nD) (t : Fin cfg0.N) (d) : (dat0 V c).before 0 t d = blk0 V c 0 t :=
  found0_0 V (dat0 V c) (arr0 V c 0) (left0_0 V c) t d
theorem held0_1 (c : Dev nD) (t : Fin cfg0.N) (d) : (dat0 V c).before 1 t d = blk0 V c 1 t :=
  found0_1 V (dat0 V c) (arr0 V c 1) (left0_1 V c) t d
theorem held0_2 (c : Dev nD) (t : Fin cfg0.N) (d) : (dat0 V c).before 2 t d = blk0 V c 2 t :=
  found0_2 V (dat0 V c) (arr0 V c 2) (left0_2 V c) t d
theorem held0_3 (c : Dev nD) (t : Fin cfg0.N) (d) : (dat0 V c).before 3 t d = blk0 V c 3 t :=
  found0_3 V (dat0 V c) (arr0 V c 3) (left0_3 V c) t d
theorem held0_4 (c : Dev nD) (t : Fin cfg0.N) (d) : (dat0 V c).before 4 t d = blk0 V c 4 t :=
  found0_4 V (dat0 V c) (arr0 V c 4) (left0_4 V c) t d
theorem held0_5 (c : Dev nD) (t : Fin cfg0.N) (d) : (dat0 V c).before 5 t d = blk0 V c 5 t :=
  found0_5 V (dat0 V c) (arr0 V c 5) (left0_5 V c) t d

/-- What the body is entered with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: every input buffer holds its block, so the triple applies; the rest passes through. -/
theorem body_at0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [held0_0, held0_1, held0_2, held0_3, held0_4, held0_5]
  rw [show (dat0 V c).Φ t.succ = (dat0 V c).Φ t.castSucc from rfl,
    show (dat0 V c).owesAt () t.succ = (dat0 V c).owesAt () t.castSucc from rfl,
    left0_0, left0_1, left0_2, left0_3, left0_4, left0_5, left0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple0 c Set.univ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem obligation0 (c : Dev nD) : BodyObligation (dat0 (F := F) V c) (defs₀ (F := F)) Variants.none () Set.univ := fun t => by
  rw [bigSep_W0, bigSep_W0]
  exact body_at0 V c t

end Cert.KernelIdeal.Regions

end
-- ==== Proof.KIRegion1.lean ====
/-
  Region 1 of the program: the second rectified layer and the logistic scores on a block of 5000 rows, as the pipeline runs it at one grid point.

  The pipeline hands the body one staging buffer per window. Each input window's buffer holds the block of its array
  that the window's index map selects at the point (fetched there, or still in place from an earlier point when the
  index has not moved). The body reads the 8 input buffers whole, computes, and overwrites the output buffer whole with
  one value: the payload of its single store, a function of the 8 blocks alone. What the output buffer held before
  is read once and never used. So after the body every input buffer is as it was, and the output buffer holds that
  function of the input blocks; this is the per-point proof data of the region, stated for any contents V of the
  arrays at the region's entry.
-/
import proofs.«101540_j77687368450080_2_alg».proof.Proof.Gen.KernelIdeal.Launch
import proofs.«101540_j77687368450080_2_alg».proof.Proof.Gen.KernelIdeal.Skeleton
import proofs.«101540_j77687368450080_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w's array that point t selects, read off the array's contents at the region's entry. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever proof data has V's array and leaves the block in place finds the block in the buffer at
    every point, whether the point fetches it or the index has stayed where it was. -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1: whatever proof data has V's array and leaves the block in place finds the block in the buffer at
    every point, whether the point fetches it or the index has stayed where it was. -/
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2: whatever proof data has V's array and leaves the block in place finds the block in the buffer at
    every point, whether the point fetches it or the index has stayed where it was. -/
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3: whatever proof data has V's array and leaves the block in place finds the block in the buffer at
    every point, whether the point fetches it or the index has stayed where it was. -/
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4: whatever proof data has V's array and leaves the block in place finds the block in the buffer at
    every point, whether the point fetches it or the index has stayed where it was. -/
theorem found1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5: whatever proof data has V's array and leaves the block in place finds the block in the buffer at
    every point, whether the point fetches it or the index has stayed where it was. -/
theorem found1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6: whatever proof data has V's array and leaves the block in place finds the block in the buffer at
    every point, whether the point fetches it or the index has stayed where it was. -/
theorem found1_6 {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Input window 7: whatever proof data has V's array and leaves the block in place finds the block in the buffer at
    every point, whether the point fetches it or the index has stayed where it was. -/
theorem found1_7 {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- The output buffer after the body: its one store covers it, with the payload of the 8 input buffers read whole. -/
def stored1 (x0 : Vec F S5000x128 .f32) (x1 : Vec F S5000x1 .f32) (x2 : Vec F S5000x128 .f32) (x3 : Vec F S128x128 .bf16) (x4 : Vec F S128 .f32) (x5 : Vec F S128x128 .bf16) (x6 : Vec F S128x1 .bf16) (x7 : Vec F S1 .f32) : Vec F S5000x1 .f32 :=
  View.canon [⟨(Rect.unit (s := S5000x1) ![0, 0] S5000x1.size inb_S5000x1_S5000x1_0_0), k1_pay1 (View.ld x0 (Rect.unit (s := S5000x128) ![0, 0] S5000x128.size inb_S5000x128_S5000x128_0_0)) (View.ld x1 (Rect.unit (s := S5000x1) ![0, 0] S5000x1.size inb_S5000x1_S5000x1_0_0)) (View.ld x2 (Rect.unit (s := S5000x128) ![0, 0] S5000x128.size inb_S5000x128_S5000x128_0_0)) (View.ld x3 (Rect.unit (s := S128x128) ![0, 0] S128x128.size inb_S128x128_S128x128_0_0)) (View.ld x4 (Rect.unit (s := S128) ![0] S128.size inb_S128_S128_0)) (View.ld x5 (Rect.unit (s := S128x128) ![0, 0] S128x128.size inb_S128x128_S128x128_0_0)) (View.ld x6 (Rect.unit (s := S128x1) ![0, 0] S128x1.size inb_S128x1_S128x1_0_0)) (View.ld x7 (Rect.unit (s := S1) ![0] S1.size inb_S1_S1_0))⟩]

/-- The one store's rectangle is the whole buffer. -/
theorem tiles1 (p0 : Vec F S5000x1 .f32) (y : S5000x1.Idx) :
    ∃ pc ∈ ([⟨(Rect.unit (s := S5000x1) ![0, 0] S5000x1.size inb_S5000x1_S5000x1_0_0), p0⟩] : List (View.Piece (Elt F) S5000x1 .f32)), y ∈ pc.1.set :=
  View.cover_of_tiled [⟨(Rect.unit (s := S5000x1) ![0, 0] S5000x1.size inb_S5000x1_S5000x1_0_0), p0⟩] S5000x1.size (by rfl) y

set_option maxHeartbeats 1000000 in
/-- The body on whole buffers: the inputs held at x0 … x7, the output at anything. It ends with the inputs as they were
    and the output at `stored1` of them. -/
theorem body_triple1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .bf16) (harg4 : arg4.IsWhole) (arg5 : Memref sig .tc .vmem S128 .f32) (harg5 : arg5.IsWhole) (arg6 : Memref sig .tc .vmem S128x128 .bf16) (harg6 : arg6.IsWhole) (arg7 : Memref sig .tc .vmem S128x1 .bf16) (harg7 : arg7.IsWhole) (arg8 : Memref sig .tc .vmem S1 .f32) (harg8 : arg8.IsWhole) (arg9 : Memref sig .tc .vmem S5000x1 .f32) (harg9 : arg9.IsWhole)
    (x0 : Vec F S5000x128 .f32) (x1 : Vec F S5000x1 .f32) (x2 : Vec F S5000x128 .f32) (x3 : Vec F S128x128 .bf16) (x4 : Vec F S128 .f32) (x5 : Vec F S128x128 .bf16) (x6 : Vec F S128x1 .bf16) (x7 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (stored1 x0 x1 x2 x3 x4 x5 x6 x7)) -∗ K ⟨⟩))
      ⊢ wp frame (wpE (defs₀ (F := F)) Variants.none c none) E (cc1__sage2_cls_kernel i arg1 harg1 arg2 harg2 arg3 harg3 arg4 harg4 arg5 harg5 arg6 harg6 arg7 harg7 arg8 harg8 arg9 harg9) K := by
  simp only [cc1__sage2_cls_kernel_eq_skeleton]; unfold cc1__sage2_cls_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0
  subst hf1
  subst hf2
  subst hf3
  subst hf4
  subst hf5
  subst hf6
  subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (tiles1 _)

/-- The region's proof data on core c: the arrays as the region finds them; after the body at point t every input's
    buffer at its block, the output's at `stored1` of the blocks; nothing else held, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => stored1 (blk1 V c 0 t) (blk1 V c 1 t) (blk1 V c 2 t) (blk1 V c 3 t) (blk1 V c 4 t) (blk1 V c 5 t) (blk1 V c 6 t) (blk1 V c 7 t)
  Φ _ := Pipeline.ΦA spec1 c
  q _ := fullShare
  owed _ := 0

theorem arr1 (c : Dev nD) (w : Fin cfg1.W) : (dat1 V c).A w = V c (Pipeline.arrRef spec1 w) := by
  dsimp only [dat1]

theorem left1_0 (c : Dev nD) (t : Fin cfg1.N) : (dat1 V c).after 0 t = blk1 V c 0 t := by dsimp only [dat1]
theorem left1_1 (c : Dev nD) (t : Fin cfg1.N) : (dat1 V c).after 1 t = blk1 V c 1 t := by dsimp only [dat1]
theorem left1_2 (c : Dev nD) (t : Fin cfg1.N) : (dat1 V c).after 2 t = blk1 V c 2 t := by dsimp only [dat1]
theorem left1_3 (c : Dev nD) (t : Fin cfg1.N) : (dat1 V c).after 3 t = blk1 V c 3 t := by dsimp only [dat1]
theorem left1_4 (c : Dev nD) (t : Fin cfg1.N) : (dat1 V c).after 4 t = blk1 V c 4 t := by dsimp only [dat1]
theorem left1_5 (c : Dev nD) (t : Fin cfg1.N) : (dat1 V c).after 5 t = blk1 V c 5 t := by dsimp only [dat1]
theorem left1_6 (c : Dev nD) (t : Fin cfg1.N) : (dat1 V c).after 6 t = blk1 V c 6 t := by dsimp only [dat1]
theorem left1_7 (c : Dev nD) (t : Fin cfg1.N) : (dat1 V c).after 7 t = blk1 V c 7 t := by dsimp only [dat1]
theorem left1_8 (c : Dev nD) (t : Fin cfg1.N) : (dat1 V c).after 8 t = stored1 (blk1 V c 0 t) (blk1 V c 1 t) (blk1 V c 2 t) (blk1 V c 3 t) (blk1 V c 4 t) (blk1 V c 5 t) (blk1 V c 6 t) (blk1 V c 7 t) := by dsimp only [dat1]

theorem held1_0 (c : Dev nD) (t : Fin cfg1.N) (d) : (dat1 V c).before 0 t d = blk1 V c 0 t :=
  found1_0 V (dat1 V c) (arr1 V c 0) (left1_0 V c) t d
theorem held1_1 (c : Dev nD) (t : Fin cfg1.N) (d) : (dat1 V c).before 1 t d = blk1 V c 1 t :=
  found1_1 V (dat1 V c) (arr1 V c 1) (left1_1 V c) t d
theorem held1_2 (c : Dev nD) (t : Fin cfg1.N) (d) : (dat1 V c).before 2 t d = blk1 V c 2 t :=
  found1_2 V (dat1 V c) (arr1 V c 2) (left1_2 V c) t d
theorem held1_3 (c : Dev nD) (t : Fin cfg1.N) (d) : (dat1 V c).before 3 t d = blk1 V c 3 t :=
  found1_3 V (dat1 V c) (arr1 V c 3) (left1_3 V c) t d
theorem held1_4 (c : Dev nD) (t : Fin cfg1.N) (d) : (dat1 V c).before 4 t d = blk1 V c 4 t :=
  found1_4 V (dat1 V c) (arr1 V c 4) (left1_4 V c) t d
theorem held1_5 (c : Dev nD) (t : Fin cfg1.N) (d) : (dat1 V c).before 5 t d = blk1 V c 5 t :=
  found1_5 V (dat1 V c) (arr1 V c 5) (left1_5 V c) t d
theorem held1_6 (c : Dev nD) (t : Fin cfg1.N) (d) : (dat1 V c).before 6 t d = blk1 V c 6 t :=
  found1_6 V (dat1 V c) (arr1 V c 6) (left1_6 V c) t d
theorem held1_7 (c : Dev nD) (t : Fin cfg1.N) (d) : (dat1 V c).before 7 t d = blk1 V c 7 t :=
  found1_7 V (dat1 V c) (arr1 V c 7) (left1_7 V c) t d

/-- What the body is entered with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: every input buffer holds its block, so the triple applies; the rest passes through. -/
theorem body_at1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [held1_0, held1_1, held1_2, held1_3, held1_4, held1_5, held1_6, held1_7]
  rw [show (dat1 V c).Φ t.succ = (dat1 V c).Φ t.castSucc from rfl,
    show (dat1 V c).owesAt () t.succ = (dat1 V c).owesAt () t.castSucc from rfl,
    left1_0, left1_1, left1_2, left1_3, left1_4, left1_5, left1_6, left1_7, left1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple1 c Set.univ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the region, at every point. -/
theorem obligation1 (c : Dev nD) : BodyObligation (dat1 (F := F) V c) (defs₀ (F := F)) Variants.none () Set.univ := fun t => by
  rw [bigSep_W1, bigSep_W1]
  exact body_at1 V c t

end Cert.KernelIdeal.Regions

end
-- ==== Proof.KIRun.lean ====
/-
  The whole run of the program: @main is a stretch of host operations, region 0, a second stretch of host operations,
  region 1. The contents of the unscoped buffers are followed through these four items as a fold from the launch
  memory: a host stretch applies its operations; a region leaves each of its windows' arrays at what the pipeline's
  write-backs make of it (an input array as entered, the output array block by block) and every other buffer as
  entered. The run ends with every unscoped buffer at the last stage of this fold. No host operation and no region
  writes an argument array, so each argument reads back through the fold as launched: that is the program's frame. The
  result array is read off the same fold by the modules that compute its value.
-/
import proofs.«101540_j77687368450080_2_alg».proof.Proof.KIRegion0
import proofs.«101540_j77687368450080_2_alg».proof.Proof.KIRegion1
import proofs.«101540_j77687368450080_2_alg».proof.Proof.Gen.KernelIdeal.Regions

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers between the items of @main -/

/-- Core c's buffers at launch. -/
abbrev W0 : Dev nD → Valuation τ sig (Elt F) := fun c b => m (c, b)
/-- After the first host stretch: what region 0 is entered with. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After region 0: its arrays at what the write-backs leave, the rest as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit_arr0 (c : Dev nD) (w : Fin cfg0.W) : (dat0 (V1 m) c).arrAt w cfg0.N = V2 m c (Pipeline.arrRef spec0 w) :=
  (W2_arr m c w).symm
theorem exit_rest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch: what region 1 is entered with. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After region 1: its arrays at what the write-backs leave, the rest as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem exit_arr1 (c : Dev nD) (w : Fin cfg1.W) : (dat1 (V3 m) c).arrAt w cfg1.N = V4 m c (Pipeline.arrRef spec1 w) :=
  (W4_arr m c w).symm
theorem exit_rest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## Every argument array reads back through the fold as launched -/

theorem kept_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem kept_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem kept_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem kept_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem kept_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem kept_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem kept_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem kept_main_arg7 (c : Dev nD) : W4 m c (Proc.devRef .tc main_arg7) = m ((c : Thread nD τ).loc main_arg7) :=
  calc W4 m c (Proc.devRef .tc main_arg7)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem kept_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem kept_main_arg9 (c : Dev nD) : W4 m c (Proc.devRef .tc main_arg9) = m ((c : Thread nD τ).loc main_arg9) :=
  calc W4 m c (Proc.devRef .tc main_arg9)
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem kept_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := StableHlo.after_of_writes_sub hostOps1 _ hostOps1_writes (by decide)
    _ = W1 m c (Proc.devRef .tc main_arg10) := (W2_arr m c 4).trans (((dat0 (V1 m) c).arrAt_in 4 rfl _).trans (arr0 (V1 m) c 4))
    _ = W0 m c (Proc.devRef .tc main_arg10) := StableHlo.after_of_writes_sub hostOps0 _ hostOps0_writes (by decide)
    _ = m ((c : Thread nD τ).loc main_arg10) := rfl
theorem kept_main_arg11 (c : Dev nD) : W4 m c (Proc.devRef .tc main_arg11) = m ((c : Thread nD τ).loc main_arg11) :=
  calc W4 m c (Proc.devRef .tc main_arg11)
    _ = W3 m c (Proc.devRef .tc main_arg11) := W4_of_ne m c main_arg11 (by decide)
    _ = W2 m c (Proc.devRef .tc main_arg11) := StableHlo.after_of_writes_sub hostOps1 _ hostOps1_writes (by decide)
    _ = W1 m c (Proc.devRef .tc main_arg11) := W2_of_ne m c main_arg11 (by decide)
    _ = W0 m c (Proc.devRef .tc main_arg11) := StableHlo.after_of_writes_sub hostOps0 _ hostOps0_writes (by decide)
    _ = m ((c : Thread nD τ).loc main_arg11) := rfl
theorem kept_main_arg12 (c : Dev nD) : W4 m c (Proc.devRef .tc main_arg12) = m ((c : Thread nD τ).loc main_arg12) :=
  calc W4 m c (Proc.devRef .tc main_arg12)
    _ = W3 m c (Proc.devRef .tc main_arg12) := W4_of_ne m c main_arg12 (by decide)
    _ = W2 m c (Proc.devRef .tc main_arg12) := StableHlo.after_of_writes_sub hostOps1 _ hostOps1_writes (by decide)
    _ = W1 m c (Proc.devRef .tc main_arg12) := W2_of_ne m c main_arg12 (by decide)
    _ = W0 m c (Proc.devRef .tc main_arg12) := StableHlo.after_of_writes_sub hostOps0 _ hostOps0_writes (by decide)
    _ = m ((c : Thread nD τ).loc main_arg12) := rfl
theorem kept_main_arg13 (c : Dev nD) : W4 m c (Proc.devRef .tc main_arg13) = m ((c : Thread nD τ).loc main_arg13) :=
  calc W4 m c (Proc.devRef .tc main_arg13)
    _ = W3 m c (Proc.devRef .tc main_arg13) := (W4_arr m c 4).trans (((dat1 (V3 m) c).arrAt_in 4 rfl _).trans (arr1 (V3 m) c 4))
    _ = W2 m c (Proc.devRef .tc main_arg13) := StableHlo.after_of_writes_sub hostOps1 _ hostOps1_writes (by decide)
    _ = W1 m c (Proc.devRef .tc main_arg13) := W2_of_ne m c main_arg13 (by decide)
    _ = W0 m c (Proc.devRef .tc main_arg13) := StableHlo.after_of_writes_sub hostOps0 _ hostOps0_writes (by decide)
    _ = m ((c : Thread nD τ).loc main_arg13) := rfl
theorem kept_main_arg14 (c : Dev nD) : W4 m c (Proc.devRef .tc main_arg14) = m ((c : Thread nD τ).loc main_arg14) :=
  calc W4 m c (Proc.devRef .tc main_arg14)
    _ = W3 m c (Proc.devRef .tc main_arg14) := W4_of_ne m c main_arg14 (by decide)
    _ = W2 m c (Proc.devRef .tc main_arg14) := StableHlo.after_of_writes_sub hostOps1 _ hostOps1_writes (by decide)
    _ = W1 m c (Proc.devRef .tc main_arg14) := W2_of_ne m c main_arg14 (by decide)
    _ = W0 m c (Proc.devRef .tc main_arg14) := StableHlo.after_of_writes_sub hostOps0 _ hostOps0_writes (by decide)
    _ = m ((c : Thread nD τ).loc main_arg14) := rfl
theorem kept_main_arg15 (c : Dev nD) : W4 m c (Proc.devRef .tc main_arg15) = m ((c : Thread nD τ).loc main_arg15) :=
  calc W4 m c (Proc.devRef .tc main_arg15)
    _ = W3 m c (Proc.devRef .tc main_arg15) := W4_of_ne m c main_arg15 (by decide)
    _ = W2 m c (Proc.devRef .tc main_arg15) := StableHlo.after_of_writes_sub hostOps1 _ hostOps1_writes (by decide)
    _ = W1 m c (Proc.devRef .tc main_arg15) := W2_of_ne m c main_arg15 (by decide)
    _ = W0 m c (Proc.devRef .tc main_arg15) := StableHlo.after_of_writes_sub hostOps0 _ hostOps0_writes (by decide)
    _ = m ((c : Thread nD τ).loc main_arg15) := rfl
theorem kept_main_arg16 (c : Dev nD) : W4 m c (Proc.devRef .tc main_arg16) = m ((c : Thread nD τ).loc main_arg16) :=
  calc W4 m c (Proc.devRef .tc main_arg16)
    _ = W3 m c (Proc.devRef .tc main_arg16) := (W4_arr m c 7).trans (((dat1 (V3 m) c).arrAt_in 7 rfl _).trans (arr1 (V3 m) c 7))
    _ = W2 m c (Proc.devRef .tc main_arg16) := StableHlo.after_of_writes_sub hostOps1 _ hostOps1_writes (by decide)
    _ = W1 m c (Proc.devRef .tc main_arg16) := W2_of_ne m c main_arg16 (by decide)
    _ = W0 m c (Proc.devRef .tc main_arg16) := StableHlo.after_of_writes_sub hostOps0 _ hostOps0_writes (by decide)
    _ = m ((c : Thread nD τ).loc main_arg16) := rfl

/-! ## The proof data of both pipelines and the thread state -/

abbrev adm : (p : Fin 2) → (pcfgs (F := F) p).Adm := fun p => (cfgs p).toPCfg_adm
/-- Each pipeline's proof data at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- Beside the buffers every item carries the core's generator register at some state and the core owing nothing. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the core owing nothing. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 as a segment of @main. It is entered with every unscoped buffer at the contents before it; its windows'
    arrays are split out of those buffers, the pipeline runs over them with the body obligation, and at the exit the
    arrays go back at what the write-backs leave, every other buffer as entered. The generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of @main. It is entered with every unscoped buffer at the contents before it; its windows'
    arrays are split out of those buffers, the pipeline runs over them with the body obligation, and at the exit the
    arrays go back at what the write-backs leave, every other buffer as entered. The generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (exit_arr1 m c) (exit_rest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

set_option backward.isDefEq.respectTransparency.types false in
/-- Every weakly fair execution of @main from memory m with zero counters terminates, nothing faulting, and ends with
    every unscoped buffer of every core at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the run ends with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c),
     (h c _ (mem_uc main_arg8 (by decide))).trans (kept_main_arg8 m c),
     (h c _ (mem_uc main_arg9 (by decide))).trans (kept_main_arg9 m c),
     (h c _ (mem_uc main_arg10 (by decide))).trans (kept_main_arg10 m c),
     (h c _ (mem_uc main_arg11 (by decide))).trans (kept_main_arg11 m c),
     (h c _ (mem_uc main_arg12 (by decide))).trans (kept_main_arg12 m c),
     (h c _ (mem_uc main_arg13 (by decide))).trans (kept_main_arg13 m c),
     (h c _ (mem_uc main_arg14 (by decide))).trans (kept_main_arg14 m c),
     (h c _ (mem_uc main_arg15 (by decide))).trans (kept_main_arg15 m c),
     (h c _ (mem_uc main_arg16 (by decide))).trans (kept_main_arg16 m c)⟩)
    (run_all m ρ)

end Cert.KernelIdeal.Regions

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«101540_j77687368450080_2_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibSageLayers.lean ====
/-
  GENERAL LEMMAS: a mean-aggregating graph layer on extended reals, as functions of whole matrices; nothing here mentions a program and
  every extent is arbitrary.

  For a matrix a of aggregated neighbour features and a matrix x of node features (R rows, K columns), two weight
  matrices Wl, Wr (K rows, N columns) and a bias b (length N), the pre-activation at (p, q) is
      (sum over k of a(p, k) * Wl(k, q)  +  sum over k of x(p, k) * Wr(k, q))  +  b(q).
  The rectified layer takes the larger of that and zero. The log-softmax layer subtracts from every entry of a row the
  row's maximum m and then the logarithm of the row's sum of exp(entry - m).

  Two facts are proved for each layer.
  * ROW-LOCALITY: row p of the result depends only on row p of a and of x, so the layer applied to a block of consecutive
    rows is that block of rows of the layer applied to the whole matrices.
  * THE SPELLINGS: the matrix unit's two products into zero accumulators, added, plus the bias cast to one row and laid
    along the rows; and the host's first product plus the bias broadcast twice, plus the second product. The two differ
    by the order of three summands, and addition of extended reals is commutative and associative, so no entry needs to
    be finite.
-/
import Idealize.ShloMosaic.PureOps.Ideal
import Idealize.ShloMosaic.PureOps.Ideal.Laws
import Idealize.ShloMosaic.Lib.ValueIdx
import proofs.«101540_j77687368450080_2_alg».proof.Proof.LibMatmulRows
import proofs.«101540_j77687368450080_2_alg».proof.Proof.LibBiasRows
import proofs.«101540_j77687368450080_2_alg».proof.Proof.LibLayout
import proofs.«101540_j77687368450080_2_alg».proof.Proof.LibLaneMax

noncomputable section

namespace Cert.Sage

open Idealize.ShloMosaic Idealize.ShloMosaic.ValueIdx
open scoped BigOperators

/-- A matrix of R rows and C columns of extended reals. -/
abbrev Mat (R C : ℕ) := (⟨2, ![R, C]⟩ : Shape).Idx → EReal
/-- A vector of N extended reals. -/
abbrev Vc (N : ℕ) := (⟨1, ![N]⟩ : Shape).Idx → EReal

/-- The pre-activation at (p, q): row p of a against column q of Wl, plus row p of x against column q of Wr, plus b(q). -/
def preAt {R K N : ℕ} (a x : Mat R K) (Wl : Mat K N) (b : Vc N) (Wr : Mat K N) (p : Fin R) (q : Fin N) : EReal :=
  ((∑ k : Fin K, a (ix2 p k) * Wl (ix2 k q)) + ∑ k : Fin K, x (ix2 p k) * Wr (ix2 k q)) + b (ix1 q)

/-- The rectified layer: the larger of the pre-activation and the single-precision zero. -/
def reluLayer {R K N : ℕ} (a x : Mat R K) (Wl : Mat K N) (b : Vc N) (Wr : Mat K N) : Mat R N :=
  fun i => max (preAt a x Wl b Wr (i 0) (i 1)) (Ideal.ofBits .f32 0x00000000#32)

/-- The maximum of a row, folded from the single-precision word of minus infinity. -/
def rowMax {N : ℕ} (z : Fin N → EReal) : EReal :=
  (Finset.univ : Finset (Fin N)).fold max (Ideal.ofBits .f32 0xFF800000#32) z

/-- Log-softmax of a row z at position q: (z q - m) - log (sum over q' of exp (z q' - m)), m the row's maximum. -/
def lsmAt {N : ℕ} (z : Fin N → EReal) (q : Fin N) : EReal :=
  (z q - rowMax z) - Ideal.log (∑ q' : Fin N, Ideal.exp (z q' - rowMax z))

/-- The log-softmax layer: log-softmax of each row of pre-activations. -/
def lsmLayer {R K N : ℕ} (a x : Mat R K) (Wl : Mat K N) (b : Vc N) (Wr : Mat K N) : Mat R N :=
  fun i => lsmAt (fun q => preAt a x Wl b Wr (i 0) q) (i 1)

/-! ## Row-locality -/

/-- The pre-activation of row p of (a, x) is that of row p' of (a', x') when the rows agree. -/
theorem preAt_congr {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : preAt a x Wl b Wr p q = preAt a' x' Wl b Wr p' q := by
  unfold preAt
  have e1 : ∀ k : Fin K, a (ix2 p k) * Wl (ix2 k q) = a' (ix2 p' k) * Wl (ix2 k q) := fun k => by rw [ha k]
  have e2 : ∀ k : Fin K, x (ix2 p k) * Wr (ix2 k q) = x' (ix2 p' k) * Wr (ix2 k q) := fun k => by rw [hx k]
  rw [Finset.sum_congr rfl fun k _ => e1 k, Finset.sum_congr rfl fun k _ => e2 k]

/-- The rectified layer on matrices whose rows p and p' agree: the same row of results. -/
theorem reluLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : reluLayer a x Wl b Wr (ix2 p q) = reluLayer a' x' Wl b Wr (ix2 p' q) := by
  show max (preAt a x Wl b Wr p q) _ = max (preAt a' x' Wl b Wr p' q) _
  rw [preAt_congr a x a' x' Wl b Wr p p' ha hx q]

/-- The log-softmax layer on matrices whose rows p and p' agree: the same row of results. -/
theorem lsmLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : lsmLayer a x Wl b Wr (ix2 p q) = lsmLayer a' x' Wl b Wr (ix2 p' q) := by
  show lsmAt (fun q => preAt a x Wl b Wr p q) q = lsmAt (fun q => preAt a' x' Wl b Wr p' q) q
  rw [show (fun q => preAt a x Wl b Wr p q) = fun q => preAt a' x' Wl b Wr p' q from
    funext fun c => preAt_congr a x a' x' Wl b Wr p p' ha hx c]

/-! ## The matrix unit's spelling -/

/-- Two products into zero accumulators, added, plus the bias cast to one row and laid along the rows, read at (p, q). -/
theorem pre_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ b hc) hb) (ix2 p q) = preAt a x Wl b Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ b hc) hb (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  rfl

/-- A row's maximum subtracted, then the logarithm of the row's sum of exponentials subtracted — the reductions over the
    lane axis, their results cast to a column and laid back over the lanes — read at (p, q). -/
theorem lsm_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf (subf z (broadcastTo ⟨2, ![R, N]⟩ (shapeCast ⟨2, ![R, 1]⟩
            (multiReduction .maximumf [1] ⟨1, ![R]⟩ z 0xFF800000#32 hred hφ hmax) hc1) hb1))
      (broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1) (ix2 p q)
      = lsmAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show (z (ix2 p q) - broadcastTo ⟨2, ![R, N]⟩ (shapeCast ⟨2, ![R, 1]⟩
      (multiReduction .maximumf [1] ⟨1, ![R]⟩ z 0xFF800000#32 hred hφ hmax) hc1) hb1 (ix2 p q))
    - broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1 (ix2 p q) = _
  rw [hM q, Cert.LibLayout.broadcastTo_a1_ab_apply]
  show _ - Ideal.log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1 (ix2 p (0 : Fin 1))) = _
  rw [Cert.LibLayout.shapeCast_a_a1_apply, Cert.LibLayout.laneSum_apply]
  unfold lsmAt
  refine congrArg (fun s => (z (ix2 p q) - rowMax fun q' => z (ix2 p q')) - Ideal.log s) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

/-! ## The host's spelling -/

/-- The host's first product plus the bias broadcast twice, plus the second product, read at (p, q): the same three
    summands in another order. -/
theorem pre_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (a x : FVec Ideal ⟨2, ![R, K]⟩ .f32) (Wl Wr : FVec Ideal ⟨2, ![K, N]⟩ .f32) (b : FVec Ideal ⟨1, ![N]⟩ .f32)
    (p : Fin R) (q : Fin N) :
    addf (addf (Host.dotGeneral d none a Wl)
        (broadcastInDim ⟨2, ![R, N]⟩ ![0, 1] h2 (broadcastInDim ⟨2, ![1, N]⟩ ![1] h1 b)))
      (Host.dotGeneral d none x Wr) (ix2 p q) = preAt a x Wl b Wr p q := by
  show Host.dotGeneral d none a Wl (ix2 p q)
      + broadcastInDim ⟨2, ![R, N]⟩ ![0, 1] h2 (broadcastInDim ⟨2, ![1, N]⟩ ![1] h1 b) (ix2 p q)
      + Host.dotGeneral d none x Wr (ix2 p q) = preAt a x Wl b Wr p q
  rw [Cert.LibMatmulRows.hostdot_rows d hrank hsize hl0 hl1 hr0 hr1 a Wl p q,
    Cert.LibMatmulRows.hostdot_rows d hrank hsize hl0 hl1 hr0 hr1 x Wr p q, Cert.LibBiasRows.bias_host hN b h1 h2 p q]
  exact add_right_comm _ _ _

/-- A maximum with a value the fold starts from changes nothing: the fold is at least its starting value. -/
theorem max_start_rowMax {N : ℕ} (z : Fin N → EReal) :
    max (Ideal.ofBits .f32 0xFF800000#32) (rowMax z) = rowMax z :=
  max_eq_right ((Finset.le_fold_max _).mpr (Or.inl le_rfl))

end Cert.Sage

end
-- ==== Proof.LibSageRows.lean ====
/-
  GENERAL LEMMAS: row-locality of the two graph layers of LibSageLayers with every operand allowed to change: the result at (p, q) is determined by row p of the
  two feature matrices and by the entries of the weights and the bias. Stated entry by entry, so that each hypothesis is
  an equation between two extended reals.
-/
import proofs.«101540_j77687368450080_2_alg».proof.Proof.LibSageLayers

noncomputable section

namespace Cert.Sage

open Idealize.ShloMosaic Idealize.ShloMosaic.ValueIdx
open scoped BigOperators

/-- The pre-activation at (p, q) of one set of operands is that at (p', q) of another whose entries it reads agree. -/
theorem preAt_block {R R' K N : ℕ} (a x : Mat R K) (a' x' : Mat R' K) (Wl Wl' : Mat K N) (b b' : Vc N) (Wr Wr' : Mat K N)
    (p : Fin R) (p' : Fin R') (ha : ∀ k : Fin K, a (ix2 p k) = a' (ix2 p' k)) (hx : ∀ k : Fin K, x (ix2 p k) = x' (ix2 p' k))
    (hWl : ∀ (k : Fin K) (q : Fin N), Wl (ix2 k q) = Wl' (ix2 k q)) (hb : ∀ q : Fin N, b (ix1 q) = b' (ix1 q))
    (hWr : ∀ (k : Fin K) (q : Fin N), Wr (ix2 k q) = Wr' (ix2 k q)) (q : Fin N) :
    preAt a x Wl b Wr p q = preAt a' x' Wl' b' Wr' p' q := by
  unfold preAt
  have e1 : ∀ k : Fin K, a (ix2 p k) * Wl (ix2 k q) = a' (ix2 p' k) * Wl' (ix2 k q) := fun k => by rw [ha k, hWl k q]
  have e2 : ∀ k : Fin K, x (ix2 p k) * Wr (ix2 k q) = x' (ix2 p' k) * Wr' (ix2 k q) := fun k => by rw [hx k, hWr k q]
  rw [hb q, Finset.sum_congr rfl fun k _ => e1 k, Finset.sum_congr rfl fun k _ => e2 k]

/-- The rectified layer at (p, q) against (p', q). -/
theorem reluLayer_block {R R' K N : ℕ} (a x : Mat R K) (a' x' : Mat R' K) (Wl Wl' : Mat K N) (b b' : Vc N) (Wr Wr' : Mat K N)
    (p : Fin R) (p' : Fin R') (ha : ∀ k : Fin K, a (ix2 p k) = a' (ix2 p' k)) (hx : ∀ k : Fin K, x (ix2 p k) = x' (ix2 p' k))
    (hWl : ∀ (k : Fin K) (q : Fin N), Wl (ix2 k q) = Wl' (ix2 k q)) (hb : ∀ q : Fin N, b (ix1 q) = b' (ix1 q))
    (hWr : ∀ (k : Fin K) (q : Fin N), Wr (ix2 k q) = Wr' (ix2 k q)) (q : Fin N) :
    reluLayer a x Wl b Wr (ix2 p q) = reluLayer a' x' Wl' b' Wr' (ix2 p' q) := by
  show max (preAt a x Wl b Wr p q) _ = max (preAt a' x' Wl' b' Wr' p' q) _
  rw [preAt_block a x a' x' Wl Wl' b b' Wr Wr' p p' ha hx hWl hb hWr q]

/-- The log-softmax layer at (p, q) against (p', q). -/
theorem lsmLayer_block {R R' K N : ℕ} (a x : Mat R K) (a' x' : Mat R' K) (Wl Wl' : Mat K N) (b b' : Vc N) (Wr Wr' : Mat K N)
    (p : Fin R) (p' : Fin R') (ha : ∀ k : Fin K, a (ix2 p k) = a' (ix2 p' k)) (hx : ∀ k : Fin K, x (ix2 p k) = x' (ix2 p' k))
    (hWl : ∀ (k : Fin K) (q : Fin N), Wl (ix2 k q) = Wl' (ix2 k q)) (hb : ∀ q : Fin N, b (ix1 q) = b' (ix1 q))
    (hWr : ∀ (k : Fin K) (q : Fin N), Wr (ix2 k q) = Wr' (ix2 k q)) (q : Fin N) :
    lsmLayer a x Wl b Wr (ix2 p q) = lsmLayer a' x' Wl' b' Wr' (ix2 p' q) := by
  show lsmAt (fun q => preAt a x Wl b Wr p q) q = lsmAt (fun q => preAt a' x' Wl' b' Wr' p' q) q
  rw [show (fun q => preAt a x Wl b Wr p q) = fun q => preAt a' x' Wl' b' Wr' p' q from
    funext fun c => preAt_block a x a' x' Wl Wl' b b' Wr Wr' p p' ha hx hWl hb hWr c]

end Cert.Sage

end
-- ==== Proof.LibSageMxu.lean ====
/-
  GENERAL LEMMAS: two spellings the matrix unit gives a dense layer, read at (p, q) on extended reals. Nothing here mentions a
  program and every extent is arbitrary.

  * A product into a zero accumulator, plus a bias cast to one row and laid along the rows, plus a second product into a
    zero accumulator — the summand order (a·Wl + b) + x·Wr — is the pre-activation (a·Wl + x·Wr) + b of a mean-aggregating
    graph layer: addition of extended reals is commutative and associative, so no entry needs to be finite.
  * A product into a zero accumulator plus such a bias is the affine form: the sum over k of h(p, k)·W(k, q), plus b(q).
    The bias may have any length, 1 included.
-/
import Idealize.ShloMosaic.PureOps.Ideal
import Idealize.ShloMosaic.PureOps.Ideal.Laws
import Idealize.ShloMosaic.Lib.ValueIdx
import proofs.«101540_j77687368450080_2_alg».proof.Proof.LibSageLayers

noncomputable section

namespace Cert.LibSageMxu

open Idealize.ShloMosaic Idealize.ShloMosaic.ValueIdx Cert.Sage
open scoped BigOperators

/-- (a·Wl into zero + bias along the rows) + x·Wr into zero, read at (p, q), is the layer's pre-activation. -/
theorem pre_of_mxu {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (broadcastTo ⟨2, ![R, N]⟩ (shapeCast ⟨2, ![1, N]⟩ b hc) hb))
      (matmul d none x Wr (constant (F := Ideal) ⟨2, ![R, N]⟩ .f32 0x00000000#32)) (ix2 p q) = preAt a x Wl b Wr p q := by
  show matmul d none a Wl (constant (F := Ideal) ⟨2, ![R, N]⟩ .f32 0x00000000#32) (ix2 p q)
      + broadcastTo ⟨2, ![R, N]⟩ (shapeCast ⟨2, ![1, N]⟩ b hc) hb (ix2 p q)
      + matmul d none x Wr (constant (F := Ideal) ⟨2, ![R, N]⟩ .f32 0x00000000#32) (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  exact add_right_comm _ _ _

/-- h·W into zero plus a bias along the rows, read at (p, q): the sum over k of h(p, k)·W(k, q), plus b(q). -/
theorem affine_of_mxu {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) (p : Fin R) (q : Fin N) :
    addf (matmul d none h W (constant (F := Ideal) ⟨2, ![R, N]⟩ .f32 0x00000000#32))
        (broadcastTo ⟨2, ![R, N]⟩ (shapeCast ⟨2, ![1, N]⟩ b hc) hb) (ix2 p q)
      = (∑ k : Fin K, h (ix2 p k) * W (ix2 k q)) + b (ix1 q) := by
  show matmul d none h W (constant (F := Ideal) ⟨2, ![R, N]⟩ .f32 0x00000000#32) (ix2 p q)
      + broadcastTo ⟨2, ![R, N]⟩ (shapeCast ⟨2, ![1, N]⟩ b hc) hb (ix2 p q) = _
  rw [Cert.LibMatmulRows.matmul_rows d hrank hsize hl0 hl1 hr0 hr1 h W p q, Cert.LibBiasRows.bias_rows b hc hb p q]

end Cert.LibSageMxu

end
-- ==== Proof.LibMeanScale.lean ====
/-
  GENERAL LEMMAS: a mean written as a product with the reciprocal of a clamped count, against the quotient by the
  clamped count, on extended reals. Nothing here mentions a program.

  * one_word: the f32 word 0x3F800000 is the number 1.
  * max_one_ne_zero: a count clamped below by 1 is never zero, whatever the count is (an infinity included).
  * mul_recip_max: a * (1 / max e 1) = a / max e 1 for EVERY extended real a and e. The divisor max e 1 is at least 1, so
    neither quotient takes the division's zero-divisor branch, and both sides are a * (max e 1)⁻¹. No finiteness of a or of
    e is needed: when max e 1 is +inf both sides are a * 0.
  * scale_eq_div: the same law for arrays, entry by entry, when the scale's entry for index i is read at a source index
    f i (a broadcast), the word of 1 spelt as it is printed.
  * mean_scale: the law on whole arrays, in the host operations' spelling, for ANY shapes and ANY broadcast: sums times the
    broadcast of (one / max counts one) are the sums divided by the broadcast of (max counts one), when the array `one` holds 1
    everywhere. A broadcast only re-reads its operand at another index, so the law is the scalar one at every entry.
-/
import Idealize.ShloMosaic.PureOps.Ideal
import Idealize.ShloMosaic.Lib.ValueIdx

noncomputable section

namespace Cert.LibMeanScale

open Idealize.ShloMosaic

/-- The f32 word 0x3F800000 is 1. -/
theorem one_word : Ideal.ofBits .f32 0x3F800000#32 = 1 := by
  simp [Ideal.ofBits, Ideal.ieee, -EReal.coe_mul]; norm_num

/-- A count clamped below by 1 is not zero. -/
theorem max_one_ne_zero (e : EReal) : max e 1 ≠ 0 := by
  intro h
  have h1 : (1 : EReal) ≤ max e 1 := le_max_right e 1
  rw [h] at h1
  exact absurd h1 (not_le.mpr (by exact_mod_cast (zero_lt_one : (0 : ℝ) < 1)))

/-- The product with the reciprocal of a clamped count is the quotient by the clamped count, for every extended real. -/
theorem mul_recip_max (a e : EReal) : a * Ideal.div 1 (max e 1) = Ideal.div a (max e 1) := by
  rw [Ideal.div, if_neg (max_one_ne_zero e), one_mul, Ideal.div, if_neg (max_one_ne_zero e)]

/-- The same law entry by entry: the scale's entry for index i is read at f i, the number 1 is the printed word. -/
theorem scale_eq_div {ι κ : Type} (A : ι → EReal) (D : κ → EReal) (f : ι → κ) (i : ι) :
    A i * Ideal.div (Ideal.ofBits .f32 0x3F800000#32) (max (D (f i)) (Ideal.ofBits .f32 0x3F800000#32))
      = Ideal.div (A i) (max (D (f i)) (Ideal.ofBits .f32 0x3F800000#32)) := by
  rw [one_word]; exact mul_recip_max _ _

/-- The law on whole arrays, any shapes, any broadcast: sums times the broadcast reciprocal of the clamped counts are the sums
    divided by the broadcast clamped counts. -/
theorem mean_scale {S T : Shape} (dims : Fin T.rank → Fin S.rank) (hb : T.BroadcastsInDim S dims)
    (A : FVec Ideal S .f32) (D one : FVec Ideal T .f32) (hone : ∀ j, one j = 1) :
    mulf A (broadcastInDim S dims hb (Host.divf (F := Ideal) one (maximumf D one)))
      = Host.divf (F := Ideal) A (broadcastInDim S dims hb (maximumf D one)) := by
  funext i
  simp only [mulf, Host.divf, maximumf, broadcastInDim, Ideal.mulf_def, Ideal.hostDivf_def, Ideal.maximumf_def, hone]
  exact mul_recip_max _ _

end Cert.LibMeanScale

end
-- ==== Proof.Spec.lean ====
/-
  The detector as one function of whole matrices, on extended reals. Nothing here mentions a program.

  A graph of R nodes carries a feature matrix h (R rows, K columns). A map `agg` sends a feature matrix to the matrix of
  neighbour sums (row p: the sum of the rows of h over the edges that end in p), and M holds, per node, its number of
  incoming edges clamped below by one. One layer divides the neighbour sums of row p by M(p) to get neighbour means, and
  takes the rectified combination  max(mean·Wl + h·Wr + b, 0)  (Cert.Sage.reluLayer). The detector applies two such
  layers and then scores every row: the logistic function of the row against the single column of Wc, plus the bias.

  `agg` and M are parameters: the two programs compute them by the same host operations, and nothing below needs to know
  more about them than that.
-/
import Idealize.ShloMosaic.PureOps.Ideal
import Idealize.ShloMosaic.Lib.ValueIdx
import proofs.«101540_j77687368450080_2_alg».proof.Proof.LibSageLayers
import proofs.«101540_j77687368450080_2_alg».proof.Proof.LibMeanScale

noncomputable section

namespace Cert.Fraud

open Idealize.ShloMosaic Idealize.ShloMosaic.ValueIdx Cert.Sage
open scoped BigOperators

/-- Row p of s scaled by the one entry of row p of the column r. -/
def rowScaled {R K : ℕ} (s : Mat R K) (r : Mat R 1) : Mat R K := fun i => s i * r (ix2 (i 0) (0 : Fin 1))

theorem rowScaled_at {R K : ℕ} (s : Mat R K) (r : Mat R 1) (p : Fin R) (k : Fin K) :
    rowScaled s r (ix2 p k) = s (ix2 p k) * r (ix2 p (0 : Fin 1)) := rfl

/-- Row sums turned into row means: entry (p, k) of A divided by the clamped count of row p. -/
def meanOf {R K : ℕ} (A : Mat R K) (M : Vc R) : Mat R K := fun i => Ideal.div (A i) (M (ix1 (i 0)))

/-- Sums scaled row by row by the column of reciprocal clamped counts — the counts D clamped below by an array that is 1
    everywhere, its reciprocal taken entry by entry and cast to a column — are the means: a sum times the reciprocal of a
    clamped count is the sum divided by the clamped count, for every extended real. -/
theorem rowScaled_recip {R K : ℕ} (A : Mat R K) (D one : Vc R) (hone : ∀ j, one j = Ideal.ofBits .f32 0x3F800000#32)
    (hc : (⟨1, ![R]⟩ : Shape).ShapeCasts ⟨2, ![R, 1]⟩) :
    rowScaled A (shapeCast ⟨2, ![R, 1]⟩ (Host.divf (F := Ideal) (φ := .f32) one (maximumf (F := Ideal) (φ := .f32) D one)) hc)
      = meanOf A (maximumf (F := Ideal) (φ := .f32) D one) := by
  funext i
  obtain ⟨p, k, rfl⟩ : ∃ (p : Fin R) (k : Fin K), i = ix2 p k := ⟨i 0, i 1, eq_ix2 i⟩
  rw [rowScaled_at, Cert.LibLayout.shapeCast_a_a1_apply]
  show A (ix2 p k) * Ideal.div (one (ix1 p)) (max (D (ix1 p)) (one (ix1 p))) = Ideal.div (A (ix2 p k)) (max (D (ix1 p)) (one (ix1 p)))
  rw [hone]
  exact Cert.LibMeanScale.scale_eq_div A D (fun i => ix1 (i 0)) (ix2 p k)

/-- One mean-aggregating rectified layer: neighbours summed by `agg`, averaged by the clamped counts M. -/
def layer {R K : ℕ} (agg : Mat R K → Mat R K) (M : Vc R) (h : Mat R K) (Wl : Mat K K) (b : Vc K) (Wr : Mat K K) : Mat R K :=
  reluLayer (meanOf (agg h) M) h Wl b Wr

/-- The pre-logistic score of row p: row p of h against the one column of Wc, plus the bias. -/
def logitAt {R K : ℕ} (h : Mat R K) (Wc : Mat K 1) (bc : Vc 1) (p : Fin R) : EReal :=
  (∑ k : Fin K, h (ix2 p k) * Wc (ix2 k (0 : Fin 1))) + bc (ix1 (0 : Fin 1))

/-- The scores: the logistic function of each row's logit. -/
def score {R K : ℕ} (h : Mat R K) (Wc : Mat K 1) (bc : Vc 1) : Mat R 1 :=
  fun i => Ideal.logistic (logitAt h Wc bc (i 0))

/-- Two layers, then the scores. -/
def detector {R K : ℕ} (agg : Mat R K → Mat R K) (M : Vc R) (h0 : Mat R K)
    (W1l : Mat K K) (b1 : Vc K) (W1r : Mat K K) (W2l : Mat K K) (b2 : Vc K) (W2r : Mat K K) (Wc : Mat K 1) (bc : Vc 1) : Mat R 1 :=
  score (layer agg M (layer agg M h0 W1l b1 W1r) W2l b2 W2r) Wc bc

/-- The logit of row p depends only on row p of h. -/
theorem logitAt_congr {R R' K : ℕ} (h : Mat R K) (h' : Mat R' K) (Wc : Mat K 1) (bc : Vc 1) (p : Fin R) (p' : Fin R')
    (hh : ∀ k : Fin K, h (ix2 p k) = h' (ix2 p' k)) : logitAt h Wc bc p = logitAt h' Wc bc p' := by
  unfold logitAt
  rw [Finset.sum_congr rfl fun k _ => by rw [hh k]]

end Cert.Fraud

end
-- ==== Proof.KIPayloads.lean ====
/-
  What the two kernel bodies store, read at an index, on extended reals.

  Both bodies start the same way. With s the block of neighbour sums, r the column of reciprocal clamped counts, x the
  block of node features, Wl, Wr the two weight matrices and b the bias, they form a = s·r (row p of s scaled by r(p)),
  then (a·Wl + b) + x·Wr with both products into zero accumulators, then the larger of that and zero. Narrowing a float
  format changes nothing on extended reals and a cast to the same shape is the identity, so at (p, q) this is the rectified
  layer of Cert.Sage at a(p, k) = s(p, k)·r(p, 0). The first body stores it. The second body goes on: that block against the
  single column of Wc into a zero accumulator, plus the bias, through the logistic function.
-/
import proofs.«101540_j77687368450080_2_alg».proof.Proof.Gen.KernelIdeal.Skeleton
import proofs.«101540_j77687368450080_2_alg».proof.Proof.LibSageRows
import proofs.«101540_j77687368450080_2_alg».proof.Proof.LibSageMxu
import proofs.«101540_j77687368450080_2_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.Pipeline Cert.Sage Cert.Fraud
open scoped BigOperators

/-! ## The two contractions' coordinates -/

theorem dA_l0 (i : S5000x128.Idx) (s : dot_S5000x128_S128x128_S5000x128_1_0_0_1_n_n.contr.Idx) : (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dA_l1 (i : S5000x128.Idx) (s : dot_S5000x128_S128x128_S5000x128_1_0_0_1_n_n.contr.Idx) : (dot_S5000x128_S128x128_S5000x128_1_0_0_1_n_n.lhsIdx i s 1).val = (s ⟨0, by decide⟩).val :=
  dot_S5000x128_S128x128_S5000x128_1_0_0_1_n_n.lhsIdx_val_of_single rfl i s
theorem dA_r0 (i : S5000x128.Idx) (s : dot_S5000x128_S128x128_S5000x128_1_0_0_1_n_n.contr.Idx) : (dot_S5000x128_S128x128_S5000x128_1_0_0_1_n_n.rhsIdx i s 0).val = (s ⟨0, by decide⟩).val :=
  dot_S5000x128_S128x128_S5000x128_1_0_0_1_n_n.rhsIdx_val_of_single rfl i s
theorem dA_r1 (i : S5000x128.Idx) (s : dot_S5000x128_S128x128_S5000x128_1_0_0_1_n_n.contr.Idx) : (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem dC_l0 (i : S5000x1.Idx) (s : dot_S5000x128_S128x1_S5000x1_1_0_0_1_n_n.contr.Idx) : (dot_S5000x128_S128x1_S5000x1_1_0_0_1_n_n.lhsIdx i s 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem dC_l1 (i : S5000x1.Idx) (s : dot_S5000x128_S128x1_S5000x1_1_0_0_1_n_n.contr.Idx) : (dot_S5000x128_S128x1_S5000x1_1_0_0_1_n_n.lhsIdx i s 1).val = (s ⟨0, by decide⟩).val :=
  dot_S5000x128_S128x1_S5000x1_1_0_0_1_n_n.lhsIdx_val_of_single rfl i s
theorem dC_r0 (i : S5000x1.Idx) (s : dot_S5000x128_S128x1_S5000x1_1_0_0_1_n_n.contr.Idx) : (dot_S5000x128_S128x1_S5000x1_1_0_0_1_n_n.rhsIdx i s 0).val = (s ⟨0, by decide⟩).val :=
  dot_S5000x128_S128x1_S5000x1_1_0_0_1_n_n.rhsIdx_val_of_single rfl i s
theorem dC_r1 (i : S5000x1.Idx) (s : dot_S5000x128_S128x1_S5000x1_1_0_0_1_n_n.contr.Idx) : (dot_S5000x128_S128x1_S5000x1_1_0_0_1_n_n.rhsIdx i s 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-! ## The shared first part -/

/-- The first body's stored value at (p, q): the rectified layer at the scaled sums. -/
theorem pay0_at (x0 : FVec Ideal S5000x128 .f32) (x1 : FVec Ideal S5000x1 .f32) (x2 : FVec Ideal S5000x128 .f32)
    (x3 : FVec Ideal S128x128 .bf16) (x4 : FVec Ideal S128 .f32) (x5 : FVec Ideal S128x128 .bf16) (p : Fin 5000) (q : Fin 128) :
    k0_pay1 (F := Ideal) x0 x1 x2 x3 x4 x5 (ix2 p q) = reluLayer (rowScaled x0 x1) x2 x3 x4 x5 (ix2 p q) := by
  unfold k0_pay1
  simp only [shapeCast_self]
  show max (addf (addf (matmul dot_S5000x128_S128x128_S5000x128_1_0_0_1_n_n none
            (truncf .bf16 (mulf x0 (broadcastTo S5000x128 x1 broadcasts_S5000x1_S5000x128)) bitsLt_bf16_f32) x3
            (constant (F := Ideal) S5000x128 .f32 0x00000000#32))
          (broadcastTo S5000x128 (shapeCast S1x128 x4 shapeCasts_S128_S1x128) broadcasts_S1x128_S5000x128))
        (matmul dot_S5000x128_S128x128_S5000x128_1_0_0_1_n_n none (truncf .bf16 x2 bitsLt_bf16_f32) x5
          (constant (F := Ideal) S5000x128 .f32 0x00000000#32)) (ix2 p q)) (Ideal.ofBits .f32 0x00000000#32)
      = max (preAt (rowScaled x0 x1) x2 x3 x4 x5 p q) (Ideal.ofBits .f32 0x00000000#32)
  rw [Cert.LibSageMxu.pre_of_mxu (φ₁ := .bf16) (φ₂ := .bf16) (φ₃ := .bf16) (φ₄ := .bf16) dot_S5000x128_S128x128_S5000x128_1_0_0_1_n_n rfl rfl dA_l0 dA_l1 dA_r0 dA_r1 shapeCasts_S128_S1x128 broadcasts_S1x128_S5000x128
    (truncf .bf16 (mulf x0 (broadcastTo S5000x128 x1 broadcasts_S5000x1_S5000x128)) bitsLt_bf16_f32)
    (truncf .bf16 x2 bitsLt_bf16_f32) x3 x5 x4 p q]
  refine congrArg (fun z => max z (Ideal.ofBits .f32 0x00000000#32)) ?_
  refine preAt_congr _ _ (rowScaled x0 x1) x2 x3 x4 x5 p p (fun k => ?_) (fun k => rfl) q
  show x0 (ix2 p k) * broadcastTo S5000x128 x1 broadcasts_S5000x1_S5000x128 (ix2 p k) = x0 (ix2 p k) * x1 (ix2 p (0 : Fin 1))
  rw [Cert.LibLayout.broadcastTo_a1_ab_apply]

/-- The second body is the first body's value, against the one column of Wc into zero, plus the bias, through the logistic
    function. -/
theorem pay1_split (x0 : FVec Ideal S5000x128 .f32) (x1 : FVec Ideal S5000x1 .f32) (x2 : FVec Ideal S5000x128 .f32)
    (x3 : FVec Ideal S128x128 .bf16) (x4 : FVec Ideal S128 .f32) (x5 : FVec Ideal S128x128 .bf16)
    (x6 : FVec Ideal S128x1 .bf16) (x7 : FVec Ideal S1 .f32) :
    k1_pay1 (F := Ideal) x0 x1 x2 x3 x4 x5 x6 x7
      = logistic (addf (matmul dot_S5000x128_S128x1_S5000x1_1_0_0_1_n_n none
            (truncf .bf16 (k0_pay1 (F := Ideal) x0 x1 x2 x3 x4 x5) bitsLt_bf16_f32) (shapeCast S128x1 x6 shapeCasts_S128x1_S128x1)
            (constant (F := Ideal) S5000x1 .f32 0x00000000#32))
          (broadcastTo S5000x1 (shapeCast S1x1 x7 shapeCasts_S1_S1x1) broadcasts_S1x1_S5000x1)) := rfl

/-- The second body's stored value at (p, 0): the logistic function of the logit of row p of the rectified layer. -/
theorem pay1_at (x0 : FVec Ideal S5000x128 .f32) (x1 : FVec Ideal S5000x1 .f32) (x2 : FVec Ideal S5000x128 .f32)
    (x3 : FVec Ideal S128x128 .bf16) (x4 : FVec Ideal S128 .f32) (x5 : FVec Ideal S128x128 .bf16)
    (x6 : FVec Ideal S128x1 .bf16) (x7 : FVec Ideal S1 .f32) (p : Fin 5000) :
    k1_pay1 (F := Ideal) x0 x1 x2 x3 x4 x5 x6 x7 (ix2 p (0 : Fin 1))
      = Ideal.logistic (logitAt (reluLayer (rowScaled x0 x1) x2 x3 x4 x5) x6 x7 p) := by
  rw [pay1_split, shapeCast_self]
  show Ideal.logistic (addf (matmul dot_S5000x128_S128x1_S5000x1_1_0_0_1_n_n none
            (truncf .bf16 (k0_pay1 (F := Ideal) x0 x1 x2 x3 x4 x5) bitsLt_bf16_f32) x6
            (constant (F := Ideal) S5000x1 .f32 0x00000000#32))
          (broadcastTo S5000x1 (shapeCast S1x1 x7 shapeCasts_S1_S1x1) broadcasts_S1x1_S5000x1) (ix2 p (0 : Fin 1))) = _
  rw [Cert.LibSageMxu.affine_of_mxu (φ₁ := .bf16) (φ₂ := .bf16) dot_S5000x128_S128x1_S5000x1_1_0_0_1_n_n rfl rfl dC_l0 dC_l1 dC_r0 dC_r1 shapeCasts_S1_S1x1 broadcasts_S1x1_S5000x1
    (truncf .bf16 (k0_pay1 (F := Ideal) x0 x1 x2 x3 x4 x5) bitsLt_bf16_f32) x6 x7 p (0 : Fin 1)]
  refine congrArg Ideal.logistic ?_
  unfold logitAt
  refine congrArg (fun z => z + x7 (ix1 (0 : Fin 1))) (Finset.sum_congr rfl fun k _ => ?_)
  show k0_pay1 (F := Ideal) x0 x1 x2 x3 x4 x5 (ix2 p k) * x6 (ix2 k (0 : Fin 1)) = _
  rw [pay0_at]

end Cert.KernelIdeal.Payload

end
-- ==== Proof.KIValue0.lean ====
/-
  What region 0 leaves in its output array, at extended reals, as one function of the arrays it is entered with.

  The grid has 20 points; point t handles rows 5000·t … 5000·t + 4999 of the 100000 nodes. Its three row-blocked inputs
  (the neighbour sums, the column of reciprocal clamped counts, the node features) are those rows of their arrays; the two
  weight matrices and the bias are read whole at every point. The body's stored value at row p of the block depends only on
  row p of the blocks, so it is row 5000·t + p of the rectified layer applied to the whole arrays. The 20 output blocks tile
  the output array, hence the array ends as that layer of the whole arrays.
-/
import proofs.«101540_j77687368450080_2_alg».proof.Proof.KIRegion0
import proofs.«101540_j77687368450080_2_alg».proof.Proof.KIPayloads

set_option maxRecDepth 16384

noncomputable section

namespace Cert.KernelIdeal.Regions

open Cert.KernelIdeal Cert.KernelIdeal.Gen Cert.KernelIdeal.Payload
open Idealize.ShloMosaic Idealize.ShloMosaic.TcCoe Idealize.ShloMosaic.ValueIdx Idealize.ShloMosaic.Pipeline
open Idealize.SL Idealize.SL.Sem Cert.Sage Cert.Fraud

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

theorem lt20_0 (t : Fin cfg0.N) : t.val < 20 := lt_of_lt_of_eq t.isLt N_0

/-! ## Where each window's block sits: the index maps over the 20 points -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = t.val ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 1) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)

/-! ## A block's entry is the array's entry -/

theorem sums0_at (c : Dev nD) (t : Fin cfg0.N) (p : Fin 5000) (k : Fin 128) :
    blk0 V c 0 t (ix2 p k) = V c main_v41 (ix2 ⟨t.val * 5000 + p.val, by have := lt20_0 t; have := p.isLt; omega⟩ k) := by
  show V c main_v41 (((cfg0.win 0).blk t).view.emb (ix2 p k)) = _
  refine congrArg (V c main_v41) (funext fun a => Fin.ext ?_)
  match a with
  | ⟨0, _⟩ => show win0_0.index t (0 : Fin 2) * 5000 + 1 * p.val = t.val * 5000 + p.val; rw [(idx0_0 t).1]; omega
  | ⟨1, _⟩ => show win0_0.index t (1 : Fin 2) * 128 + 1 * k.val = k.val; rw [(idx0_0 t).2]; omega

theorem recip0_at (c : Dev nD) (t : Fin cfg0.N) (p : Fin 5000) (k : Fin 1) :
    blk0 V c 1 t (ix2 p k) = V c main_v31 (ix2 ⟨t.val * 5000 + p.val, by have := lt20_0 t; have := p.isLt; omega⟩ k) := by
  show V c main_v31 (((cfg0.win 1).blk t).view.emb (ix2 p k)) = _
  refine congrArg (V c main_v31) (funext fun a => Fin.ext ?_)
  match a with
  | ⟨0, _⟩ => show win0_1.index t (0 : Fin 2) * 5000 + 1 * p.val = t.val * 5000 + p.val; rw [(idx0_1 t).1]; omega
  | ⟨1, _⟩ => show win0_1.index t (1 : Fin 2) * 1 + 1 * k.val = k.val; rw [(idx0_1 t).2]; omega

theorem feat0_at (c : Dev nD) (t : Fin cfg0.N) (p : Fin 5000) (k : Fin 128) :
    blk0 V c 2 t (ix2 p k) = V c main_v22 (ix2 ⟨t.val * 5000 + p.val, by have := lt20_0 t; have := p.isLt; omega⟩ k) := by
  show V c main_v22 (((cfg0.win 2).blk t).view.emb (ix2 p k)) = _
  refine congrArg (V c main_v22) (funext fun a => Fin.ext ?_)
  match a with
  | ⟨0, _⟩ => show win0_2.index t (0 : Fin 2) * 5000 + 1 * p.val = t.val * 5000 + p.val; rw [(idx0_2 t).1]; omega
  | ⟨1, _⟩ => show win0_2.index t (1 : Fin 2) * 128 + 1 * k.val = k.val; rw [(idx0_2 t).2]; omega

theorem wl0_at (c : Dev nD) (t : Fin cfg0.N) (p : Fin 128) (k : Fin 128) :
    blk0 V c 3 t (ix2 p k) = V c main_v42 (ix2 ⟨p.val, by have := lt20_0 t; have := p.isLt; omega⟩ k) := by
  show V c main_v42 (((cfg0.win 3).blk t).view.emb (ix2 p k)) = _
  refine congrArg (V c main_v42) (funext fun a => Fin.ext ?_)
  match a with
  | ⟨0, _⟩ => show win0_3.index t (0 : Fin 2) * 128 + 1 * p.val = p.val; rw [(idx0_3 t).1]; omega
  | ⟨1, _⟩ => show win0_3.index t (1 : Fin 2) * 128 + 1 * k.val = k.val; rw [(idx0_3 t).2]; omega

theorem bias0_at (c : Dev nD) (t : Fin cfg0.N) (q : Fin 128) :
    blk0 V c 4 t (ix1 q) = V c main_arg10 (ix1 q) := by
  show V c main_arg10 (((cfg0.win 4).blk t).view.emb (ix1 q)) = _
  refine congrArg (V c main_arg10) (funext fun a => Fin.ext ?_)
  match a with
  | ⟨0, _⟩ => show win0_4.index t (0 : Fin 1) * 128 + 1 * q.val = q.val; rw [idx0_4 t]; omega

theorem wr0_at (c : Dev nD) (t : Fin cfg0.N) (p : Fin 128) (k : Fin 128) :
    blk0 V c 5 t (ix2 p k) = V c main_v43 (ix2 ⟨p.val, by have := lt20_0 t; have := p.isLt; omega⟩ k) := by
  show V c main_v43 (((cfg0.win 5).blk t).view.emb (ix2 p k)) = _
  refine congrArg (V c main_v43) (funext fun a => Fin.ext ?_)
  match a with
  | ⟨0, _⟩ => show win0_5.index t (0 : Fin 2) * 128 + 1 * p.val = p.val; rw [(idx0_5 t).1]; omega
  | ⟨1, _⟩ => show win0_5.index t (1 : Fin 2) * 128 + 1 * k.val = k.val; rw [(idx0_5 t).2]; omega

/-- The rectified layer of the whole arrays region 0 is entered with: the neighbour sums scaled row by row by the
    reciprocal clamped counts, the node features, the two weight matrices, the bias. -/
def hidden (c : Dev nD) : Mat 100000 128 :=
  reluLayer (rowScaled (V c main_v41) (V c main_v31))
    (V c main_v22) (V c main_v42) (V c main_arg10) (V c main_v43)

/-- What point t writes back is block t of `hidden`. -/
theorem flushed0 (c : Dev nD) (t : Fin cfg0.N) :
    (dat0 V c).flushed 6 t = ((cfg0.win 6).blk t).view.read (Elt Ideal) (hidden V c) := by
  show (cfg0.win 6).cut (grid0.coords t) ((dat0 V c).after 6 t) = _
  rw [left0_6]
  unfold stored0
  rw [View.canon_unit_zero zero2]
  simp only [View.ld_unit_zero (S := S5000x128) zero2, View.ld_unit_zero (S := S5000x1) zero2,
    View.ld_unit_zero (S := S128x128) zero2, View.ld_unit_zero (S := S128) zero1]
  funext j
  obtain ⟨p, q, rfl⟩ : ∃ (p : Fin 5000) (q : Fin 128), j = ix2 p q := ⟨j 0, j 1, eq_ix2 j⟩
  refine (pay0_at (blk0 V c 0 t) (blk0 V c 1 t) (blk0 V c 2 t) (blk0 V c 3 t) (blk0 V c 4 t) (blk0 V c 5 t) p q).trans ?_
  have hrow : ((cfg0.win 6).blk t).view.emb (ix2 p q)
      = ix2 (⟨t.val * 5000 + p.val, by have := lt20_0 t; have := p.isLt; omega⟩ : Fin 100000) q := by
    funext a; apply Fin.ext
    match a with
    | ⟨0, _⟩ => show win0_6.index t (0 : Fin 2) * 5000 + 1 * p.val = t.val * 5000 + p.val; rw [(idx0_6 t).1]; omega
    | ⟨1, _⟩ => show win0_6.index t (1 : Fin 2) * 128 + 1 * q.val = q.val; rw [(idx0_6 t).2]; omega
  show _ = hidden V c (((cfg0.win 6).blk t).view.emb (ix2 p q))
  rw [hrow]
  refine reluLayer_block (rowScaled (blk0 V c 0 t) (blk0 V c 1 t)) (blk0 V c 2 t)
    (rowScaled (V c main_v41) (V c main_v31)) (V c main_v22)
    (blk0 V c 3 t) (V c main_v42) (blk0 V c 4 t) (V c main_arg10) (blk0 V c 5 t) (V c main_v43)
    p ⟨t.val * 5000 + p.val, by have := lt20_0 t; have := p.isLt; omega⟩ (fun k => ?_) (fun k => ?_) (fun k q => ?_) (fun q => ?_) (fun k q => ?_) q
  · rw [rowScaled_at, rowScaled_at, sums0_at, recip0_at]
  · exact feat0_at V c t p k
  · exact wl0_at V c t k q
  · exact bias0_at V c t q
  · exact wr0_at V c t k q

/-- An index of the output array lies in point t's block iff each coordinate lies in the block's range on its axis. -/
theorem mem_out0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v44).slice (win0_6.rect t)).set ↔ _
  rw [View.set_slice_whole, Rect.mem_set_unit]
  exact Iff.rfl

/-- Row r of the output array lies in the block of point r / 5000. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  refine ⟨⟨(i 0).val / 5000, by rw [show cfg0.N = 20 from N_0]; omega⟩, flush0_6 _, ?_⟩
  rw [mem_out0]
  intro a
  match a with
  | ⟨0, _⟩ =>
    show win0_6.index _ (0 : Fin 2) * 5000 ≤ (i 0).val ∧ (i 0).val < win0_6.index _ (0 : Fin 2) * 5000 + 5000
    rw [(idx0_6 _).1]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [(idx0_6 _).2]; omega

/-- After region 0 its output array holds the rectified layer of the arrays it was entered with. -/
theorem final0 (c : Dev nD) : (dat0 V c).arrAt 6 cfg0.N = hidden V c :=
  (dat0 V c).arrAt_eq_of_cover 6 (hidden V c) (fun t _ => flushed0 V c t) cover0

end Cert.KernelIdeal.Regions

end
-- ==== Proof.KIValue1.lean ====
/-
  What region 1 leaves in its output array, at extended reals, as one function of the arrays it is entered with.

  As in region 0 the grid has 20 points and point t handles rows 5000·t … 5000·t + 4999. The neighbour sums, the reciprocal
  clamped counts and the node features are row-blocked; the weight matrices, the biases and the one classifier column are
  read whole at every point. The body's stored value at row p of a block — the logistic function of the logit of row p of
  the rectified layer — depends only on row p of the blocks, so it is the score of row 5000·t + p computed from the whole
  arrays, and the 20 output blocks tile the [100000, 1] output array.
-/
import proofs.«101540_j77687368450080_2_alg».proof.Proof.KIRegion1
import proofs.«101540_j77687368450080_2_alg».proof.Proof.KIPayloads

set_option maxRecDepth 16384

noncomputable section

namespace Cert.KernelIdeal.Regions

open Cert.KernelIdeal Cert.KernelIdeal.Gen Cert.KernelIdeal.Payload
open Idealize.ShloMosaic Idealize.ShloMosaic.TcCoe Idealize.ShloMosaic.ValueIdx Idealize.ShloMosaic.Pipeline
open Idealize.SL Idealize.SL.Sem Cert.Sage Cert.Fraud
open scoped BigOperators

variable (V : (c : Dev nD) → (b : Ref sig .tc) → Buf (Elt Ideal) ((c : Thread nD τ).loc b))

theorem nought2 : (![0, 0] : Fin 2 → Nat) = fun _ => 0 := funext fun a => by fin_cases a <;> rfl
theorem nought1 : (![0] : Fin 1 → Nat) = fun _ => 0 := funext fun a => by fin_cases a; rfl

theorem lt20_1 (t : Fin cfg1.N) : t.val < 20 := lt_of_lt_of_eq t.isLt N_1

/-- The logit of row p of one set of operands is that of row p' of another whose entries it reads agree. -/
theorem logitAt_block {R R' K : ℕ} (h : Mat R K) (h' : Mat R' K) (Wc Wc' : Mat K 1) (bc bc' : Vc 1) (p : Fin R) (p' : Fin R')
    (hh : ∀ k : Fin K, h (ix2 p k) = h' (ix2 p' k)) (hW : ∀ k : Fin K, Wc (ix2 k (0 : Fin 1)) = Wc' (ix2 k (0 : Fin 1)))
    (hb : bc (ix1 (0 : Fin 1)) = bc' (ix1 (0 : Fin 1))) : logitAt h Wc bc p = logitAt h' Wc' bc' p' := by
  unfold logitAt
  rw [hb, Finset.sum_congr rfl fun k _ => by rw [hh k, hW k]]

/-! ## Where each window's block sits: the index maps over the 20 points -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 1) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 1) = 0 :=
  (by decide +kernel : ∀ t : Fin grid1.N, _)
theorem idx1_8 : ∀ t : Fin cfg1.N, win1_8.index t (0 : Fin 2) = t.val ∧ win1_8.index t (1 : Fin 2) = 0 :=
  (by decide +kernel : ∀ t : Fin grid1.N, _)

/-! ## A block's entry is the array's entry -/

theorem sums1_at (c : Dev nD) (t : Fin cfg1.N) (p : Fin 5000) (k : Fin 128) :
    blk1 V c 0 t (ix2 p k) = V c main_v54 (ix2 ⟨t.val * 5000 + p.val, by have := lt20_1 t; have := p.isLt; omega⟩ k) := by
  show V c main_v54 (((cfg1.win 0).blk t).view.emb (ix2 p k)) = _
  refine congrArg (V c main_v54) (funext fun a => Fin.ext ?_)
  match a with
  | ⟨0, _⟩ => show win1_0.index t (0 : Fin 2) * 5000 + 1 * p.val = t.val * 5000 + p.val; rw [(idx1_0 t).1]; omega
  | ⟨1, _⟩ => show win1_0.index t (1 : Fin 2) * 128 + 1 * k.val = k.val; rw [(idx1_0 t).2]; omega

theorem recip1_at (c : Dev nD) (t : Fin cfg1.N) (p : Fin 5000) (k : Fin 1) :
    blk1 V c 1 t (ix2 p k) = V c main_v31 (ix2 ⟨t.val * 5000 + p.val, by have := lt20_1 t; have := p.isLt; omega⟩ k) := by
  show V c main_v31 (((cfg1.win 1).blk t).view.emb (ix2 p k)) = _
  refine congrArg (V c main_v31) (funext fun a => Fin.ext ?_)
  match a with
  | ⟨0, _⟩ => show win1_1.index t (0 : Fin 2) * 5000 + 1 * p.val = t.val * 5000 + p.val; rw [(idx1_1 t).1]; omega
  | ⟨1, _⟩ => show win1_1.index t (1 : Fin 2) * 1 + 1 * k.val = k.val; rw [(idx1_1 t).2]; omega

theorem feat1_at (c : Dev nD) (t : Fin cfg1.N) (p : Fin 5000) (k : Fin 128) :
    blk1 V c 2 t (ix2 p k) = V c main_v44 (ix2 ⟨t.val * 5000 + p.val, by have := lt20_1 t; have := p.isLt; omega⟩ k) := by
  show V c main_v44 (((cfg1.win 2).blk t).view.emb (ix2 p k)) = _
  refine congrArg (V c main_v44) (funext fun a => Fin.ext ?_)
  match a with
  | ⟨0, _⟩ => show win1_2.index t (0 : Fin 2) * 5000 + 1 * p.val = t.val * 5000 + p.val; rw [(idx1_2 t).1]; omega
  | ⟨1, _⟩ => show win1_2.index t (1 : Fin 2) * 128 + 1 * k.val = k.val; rw [(idx1_2 t).2]; omega

theorem wl1_at (c : Dev nD) (t : Fin cfg1.N) (p : Fin 128) (k : Fin 128) :
    blk1 V c 3 t (ix2 p k) = V c main_v55 (ix2 ⟨p.val, by have := lt20_1 t; have := p.isLt; omega⟩ k) := by
  show V c main_v55 (((cfg1.win 3).blk t).view.emb (ix2 p k)) = _
  refine congrArg (V c main_v55) (funext fun a => Fin.ext ?_)
  match a with
  | ⟨0, _⟩ => show win1_3.index t (0 : Fin 2) * 128 + 1 * p.val = p.val; rw [(idx1_3 t).1]; omega
  | ⟨1, _⟩ => show win1_3.index t (1 : Fin 2) * 128 + 1 * k.val = k.val; rw [(idx1_3 t).2]; omega

theorem bias1_at (c : Dev nD) (t : Fin cfg1.N) (q : Fin 128) :
    blk1 V c 4 t (ix1 q) = V c main_arg13 (ix1 q) := by
  show V c main_arg13 (((cfg1.win 4).blk t).view.emb (ix1 q)) = _
  refine congrArg (V c main_arg13) (funext fun a => Fin.ext ?_)
  match a with
  | ⟨0, _⟩ => show win1_4.index t (0 : Fin 1) * 128 + 1 * q.val = q.val; rw [idx1_4 t]; omega

theorem wr1_at (c : Dev nD) (t : Fin cfg1.N) (p : Fin 128) (k : Fin 128) :
    blk1 V c 5 t (ix2 p k) = V c main_v56 (ix2 ⟨p.val, by have := lt20_1 t; have := p.isLt; omega⟩ k) := by
  show V c main_v56 (((cfg1.win 5).blk t).view.emb (ix2 p k)) = _
  refine congrArg (V c main_v56) (funext fun a => Fin.ext ?_)
  match a with
  | ⟨0, _⟩ => show win1_5.index t (0 : Fin 2) * 128 + 1 * p.val = p.val; rw [(idx1_5 t).1]; omega
  | ⟨1, _⟩ => show win1_5.index t (1 : Fin 2) * 128 + 1 * k.val = k.val; rw [(idx1_5 t).2]; omega

theorem wc1_at (c : Dev nD) (t : Fin cfg1.N) (p : Fin 128) (k : Fin 1) :
    blk1 V c 6 t (ix2 p k) = V c main_v57 (ix2 ⟨p.val, by have := lt20_1 t; have := p.isLt; omega⟩ k) := by
  show V c main_v57 (((cfg1.win 6).blk t).view.emb (ix2 p k)) = _
  refine congrArg (V c main_v57) (funext fun a => Fin.ext ?_)
  match a with
  | ⟨0, _⟩ => show win1_6.index t (0 : Fin 2) * 128 + 1 * p.val = p.val; rw [(idx1_6 t).1]; omega
  | ⟨1, _⟩ => show win1_6.index t (1 : Fin 2) * 1 + 1 * k.val = k.val; rw [(idx1_6 t).2]; omega

theorem bc1_at (c : Dev nD) (t : Fin cfg1.N) (q : Fin 1) :
    blk1 V c 7 t (ix1 q) = V c main_arg16 (ix1 q) := by
  show V c main_arg16 (((cfg1.win 7).blk t).view.emb (ix1 q)) = _
  refine congrArg (V c main_arg16) (funext fun a => Fin.ext ?_)
  match a with
  | ⟨0, _⟩ => show win1_7.index t (0 : Fin 1) * 1 + 1 * q.val = q.val; rw [idx1_7 t]; omega

/-- The second rectified layer of the whole arrays region 1 is entered with. -/
def hidden2 (c : Dev nD) : Mat 100000 128 :=
  reluLayer (rowScaled (V c main_v54) (V c main_v31))
    (V c main_v44) (V c main_v55) (V c main_arg13) (V c main_v56)

/-- The scores of all rows, from the whole arrays. -/
def scores (c : Dev nD) : Mat 100000 1 := score (hidden2 V c) (V c main_v57) (V c main_arg16)

/-- What point t writes back is block t of `scores`. -/
theorem flushed1 (c : Dev nD) (t : Fin cfg1.N) :
    (dat1 V c).flushed 8 t = ((cfg1.win 8).blk t).view.read (Elt Ideal) (scores V c) := by
  show (cfg1.win 8).cut (grid1.coords t) ((dat1 V c).after 8 t) = _
  rw [left1_8]
  unfold stored1
  rw [View.canon_unit_zero nought2]
  simp only [View.ld_unit_zero (S := S5000x128) nought2, View.ld_unit_zero (S := S5000x1) nought2,
    View.ld_unit_zero (S := S128x128) nought2, View.ld_unit_zero (S := S128) nought1,
    View.ld_unit_zero (S := S128x1) nought2, View.ld_unit_zero (S := S1) nought1]
  funext j
  obtain ⟨p, u, rfl⟩ : ∃ (p : Fin 5000) (u : Fin 1), j = ix2 p u := ⟨j 0, j 1, eq_ix2 j⟩
  obtain rfl : u = 0 := Subsingleton.elim _ _
  refine (pay1_at (blk1 V c 0 t) (blk1 V c 1 t) (blk1 V c 2 t) (blk1 V c 3 t) (blk1 V c 4 t) (blk1 V c 5 t)
    (blk1 V c 6 t) (blk1 V c 7 t) p).trans ?_
  have hrow : ((cfg1.win 8).blk t).view.emb (ix2 p (0 : Fin 1))
      = ix2 (⟨t.val * 5000 + p.val, by have := lt20_1 t; have := p.isLt; omega⟩ : Fin 100000) (0 : Fin 1) := by
    funext a; apply Fin.ext
    match a with
    | ⟨0, _⟩ => show win1_8.index t (0 : Fin 2) * 5000 + 1 * p.val = t.val * 5000 + p.val; rw [(idx1_8 t).1]; omega
    | ⟨1, _⟩ => show win1_8.index t (1 : Fin 2) * 1 + 1 * 0 = 0; rw [(idx1_8 t).2]
  show _ = scores V c (((cfg1.win 8).blk t).view.emb (ix2 p (0 : Fin 1)))
  rw [hrow]
  show Ideal.logistic _ = Ideal.logistic (logitAt (hidden2 V c) (V c main_v57) (V c main_arg16)
    (⟨t.val * 5000 + p.val, by have := lt20_1 t; have := p.isLt; omega⟩ : Fin 100000))
  refine congrArg Ideal.logistic (logitAt_block _ (hidden2 V c) (blk1 V c 6 t) (V c main_v57) (blk1 V c 7 t) (V c main_arg16)
    p ⟨t.val * 5000 + p.val, by have := lt20_1 t; have := p.isLt; omega⟩ (fun k => ?_) (fun k => wc1_at V c t k 0) (bc1_at V c t 0))
  refine reluLayer_block (rowScaled (blk1 V c 0 t) (blk1 V c 1 t)) (blk1 V c 2 t)
    (rowScaled (V c main_v54) (V c main_v31)) (V c main_v44)
    (blk1 V c 3 t) (V c main_v55) (blk1 V c 4 t) (V c main_arg13) (blk1 V c 5 t) (V c main_v56)
    p ⟨t.val * 5000 + p.val, by have := lt20_1 t; have := p.isLt; omega⟩ (fun k => ?_) (fun k => ?_) (fun k q => ?_) (fun q => ?_) (fun k q => ?_) k
  · rw [rowScaled_at, rowScaled_at, sums1_at, recip1_at]
  · exact feat1_at V c t p k
  · exact wl1_at V c t k q
  · exact bias1_at V c t q
  · exact wr1_at V c t k q

/-- An index of the output array lies in point t's block iff each coordinate lies in the block's range on its axis. -/
theorem mem_out1 (t : Fin cfg1.N) (i : S100000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v58).slice (win1_8.rect t)).set ↔ _
  rw [View.set_slice_whole, Rect.mem_set_unit]
  exact Iff.rfl

/-- Row r of the output array lies in the block of point r / 5000. -/
theorem cover1 (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  refine ⟨⟨(i 0).val / 5000, by rw [show cfg1.N = 20 from N_1]; omega⟩, flush1_8 _, ?_⟩
  rw [mem_out1]
  intro a
  match a with
  | ⟨0, _⟩ =>
    show win1_8.index _ (0 : Fin 2) * 5000 ≤ (i 0).val ∧ (i 0).val < win1_8.index _ (0 : Fin 2) * 5000 + 5000
    rw [(idx1_8 _).1]; show (i 0).val / 5000 * 5000 ≤ (i 0).val ∧ (i 0).val < (i 0).val / 5000 * 5000 + 5000; omega
  | ⟨1, _⟩ =>
    show win1_8.index _ (1 : Fin 2) * 1 ≤ (i 1).val ∧ (i 1).val < win1_8.index _ (1 : Fin 2) * 1 + 1
    rw [(idx1_8 _).2]; omega

/-- After region 1 its output array holds the scores computed from the arrays it was entered with. -/
theorem final1 (c : Dev nD) : (dat1 V c).arrAt 8 cfg1.N = scores V c :=
  (dat1 V c).arrAt_eq_of_cover 8 (scores V c) (fun t _ => flushed1 V c t) cover1

end Cert.KernelIdeal.Regions

end
-- ==== Proof.RefModules.lean ====
/-
  The reference's run and its read-at-an-index lemmas, brought in for the modules that compare the two programs.
-/
import proofs.«101540_j77687368450080_2_alg».proof.Proof.Gen.ReferenceIdeal.Read
-- ==== Proof.Target.lean ====
/-
  The function of the seventeen argument arrays that both programs compute: the detector of Cert.Fraud at the node features,
  neighbour sums and clamped counts that the programs' common host operations make of the arguments.

  The node features h0 are the four column groups joined side by side (raw features, two gathered embeddings, the encoded
  time features); `agg` gathers rows by the edges' sources and adds them into the rows named by the edges' targets; the
  counts are the numbers of incoming edges clamped below by one. All three are named here by the reference's own stages,
  unopened: nothing below depends on what a gather or an accumulating scatter computes.
-/
import proofs.«101540_j77687368450080_2_alg».proof.Proof.RefModules
import proofs.«101540_j77687368450080_2_alg».proof.Proof.Spec

noncomputable section

namespace Cert.Fraud

open Idealize.ShloMosaic Idealize.ShloMosaic.ValueIdx Cert.Sage

/-- Neighbour sums of a feature matrix: rows gathered by the edges' sources, added into the rows of the edges' targets. -/
def agg (x1 : (⟨Cert.ReferenceIdeal.S2x1600000, .i32⟩ : BufTy).Contents (Elt Ideal)) : Mat 100000 128 → Mat 100000 128 := fun X =>
  Host.scatterAdd (F := Ideal) (φ := .f32) Cert.ReferenceIdeal.scatter_S100000x128_S1600000x1_S1600000x128_1_0_0_1 (Cert.ReferenceIdeal.Read.val_main_v30 (F := Ideal)) (Cert.ReferenceIdeal.Read.val_main_v31 (F := Ideal) x1)
    (Host.gather Cert.ReferenceIdeal.gather_S100000x128_S1600000x1_S1600000x128_1_0_n_n_0_1_1128 (X : FVec Ideal Cert.ReferenceIdeal.S100000x128 .f32) (Cert.ReferenceIdeal.Read.val_main_v28 (F := Ideal) x1)
      : FVec Ideal Cert.ReferenceIdeal.S1600000x128 .f32)

/-- The numbers of incoming edges, clamped below by one. -/
def counts (x1 : (⟨Cert.ReferenceIdeal.S2x1600000, .i32⟩ : BufTy).Contents (Elt Ideal)) : Vc 100000 := Cert.ReferenceIdeal.Read.val_main_v38 (F := Ideal) x1

/-- The node features: the four column groups side by side. -/
def feats (x0 : (⟨Cert.ReferenceIdeal.S100000x64, .f32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) : Mat 100000 128 :=
  Cert.ReferenceIdeal.Read.val_main_v22 (F := Ideal) x0 x2 x3 x4 x5 x6 x7 x8

/-- The scores both programs end with. -/
def target (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) (x15 : (⟨Cert.ReferenceIdeal.S128x1, .f32⟩ : BufTy).Contents (Elt Ideal)) (x16 : (⟨Cert.ReferenceIdeal.S1, .f32⟩ : BufTy).Contents (Elt Ideal)) : Mat 100000 1 :=
  detector (agg x1) (counts x1) (feats x0 x2 x3 x4 x5 x6 x7 x8) x9 x10 x11 x12 x13 x14 x15 x16

/-- The first layer's neighbour sums are the reference's own stage. -/
theorem agg_feats (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) :
    agg x1 (feats x0 x2 x3 x4 x5 x6 x7 x8) = Cert.ReferenceIdeal.Read.val_main_v32 (F := Ideal) x0 x1 x2 x3 x4 x5 x6 x7 x8 := by
  unfold agg feats Cert.ReferenceIdeal.Read.val_main_v32 Cert.ReferenceIdeal.Read.val_main_v29
  rfl

/-- The reference spells the second layer's gather and scatter with fresh constants and index tables that are, named stage by
    named stage, those of the first. -/
theorem agg_again (x1 : (⟨Cert.ReferenceIdeal.S2x1600000, .i32⟩ : BufTy).Contents (Elt Ideal)) (X : Mat 100000 128) :
    Host.scatterAdd (F := Ideal) (φ := .f32) Cert.ReferenceIdeal.scatter_S100000x128_S1600000x1_S1600000x128_1_0_0_1 (Cert.ReferenceIdeal.Read.val_main_v56 (F := Ideal)) (Cert.ReferenceIdeal.Read.val_main_v57 (F := Ideal) x1)
      (Host.gather Cert.ReferenceIdeal.gather_S100000x128_S1600000x1_S1600000x128_1_0_n_n_0_1_1128 (X : FVec Ideal Cert.ReferenceIdeal.S100000x128 .f32) (Cert.ReferenceIdeal.Read.val_main_v54 (F := Ideal) x1)
        : FVec Ideal Cert.ReferenceIdeal.S1600000x128 .f32) = agg x1 X := by
  unfold agg Cert.ReferenceIdeal.Read.val_main_v56 Cert.ReferenceIdeal.Read.val_main_v30 Cert.ReferenceIdeal.Read.val_main_cst_10 Cert.ReferenceIdeal.Read.val_main_cst Cert.ReferenceIdeal.Read.val_main_v57 Cert.ReferenceIdeal.Read.val_main_v31 Cert.ReferenceIdeal.Read.val_main_v54 Cert.ReferenceIdeal.Read.val_main_v28 Cert.ReferenceIdeal.Read.val_main_v53 Cert.ReferenceIdeal.Read.val_main_v27 Cert.ReferenceIdeal.Read.val_main_v50 Cert.ReferenceIdeal.Read.val_main_v24 Cert.ReferenceIdeal.Read.val_main_v49 Cert.ReferenceIdeal.Read.val_main_v23 Cert.ReferenceIdeal.Read.val_main_c_8 Cert.ReferenceIdeal.Read.val_main_c_3 Cert.ReferenceIdeal.Read.val_main_v52 Cert.ReferenceIdeal.Read.val_main_v26 Cert.ReferenceIdeal.Read.val_main_v51 Cert.ReferenceIdeal.Read.val_main_v25 Cert.ReferenceIdeal.Read.val_main_c_9 Cert.ReferenceIdeal.Read.val_main_c_4
  rfl

/-- Likewise the second layer's clamped counts are the first's. -/
theorem counts_again (x1 : (⟨Cert.ReferenceIdeal.S2x1600000, .i32⟩ : BufTy).Contents (Elt Ideal)) : Cert.ReferenceIdeal.Read.val_main_v64 (F := Ideal) x1 = counts x1 := by
  unfold counts Cert.ReferenceIdeal.Read.val_main_v64 Cert.ReferenceIdeal.Read.val_main_v38 Cert.ReferenceIdeal.Read.val_main_v62 Cert.ReferenceIdeal.Read.val_main_v36 Cert.ReferenceIdeal.Read.val_main_v63 Cert.ReferenceIdeal.Read.val_main_v37 Cert.ReferenceIdeal.Read.val_main_cst_13 Cert.ReferenceIdeal.Read.val_main_cst_7 Cert.ReferenceIdeal.Read.val_main_v60 Cert.ReferenceIdeal.Read.val_main_v34 Cert.ReferenceIdeal.Read.val_main_cst_12 Cert.ReferenceIdeal.Read.val_main_cst_6 Cert.ReferenceIdeal.Read.val_main_v61 Cert.ReferenceIdeal.Read.val_main_v35 Cert.ReferenceIdeal.Read.val_main_v59 Cert.ReferenceIdeal.Read.val_main_v33 Cert.ReferenceIdeal.Read.val_main_cst_11 Cert.ReferenceIdeal.Read.val_main_cst_5
  rfl

/-- The array the counts are clamped by is 1 everywhere. -/
theorem ones_at (j : Cert.ReferenceIdeal.S100000.Idx) : Cert.ReferenceIdeal.Read.val_main_v37 (F := Ideal) j = Ideal.ofBits .f32 0x3F800000#32 :=
  (Cert.ReferenceIdeal.Read.val_main_v37_apply j).trans (Cert.ReferenceIdeal.Read.val_main_cst_7_apply _)

/-- The clamped counts, opened once. -/
theorem counts_eq (x1 : (⟨Cert.ReferenceIdeal.S2x1600000, .i32⟩ : BufTy).Contents (Elt Ideal)) :
    counts x1 = maximumf (F := Ideal) (φ := .f32) (Cert.ReferenceIdeal.Read.val_main_v36 (F := Ideal) x1) (Cert.ReferenceIdeal.Read.val_main_v37 (F := Ideal)) := rfl

end Cert.Fraud

end
-- ==== Proof.KIHost.lean ====
/-
  The arrays each region is entered with, as functions of the launch arguments, and with them the value of the program's
  result.

  Before region 0 the host operations make the node features, their neighbour sums, the column of reciprocal clamped
  counts, and the two weight matrices of the first layer narrowed to the matrix unit's format. Between the regions they
  gather and add again, now over region 0's output, and narrow the second layer's weights and the classifier column. These
  are the same operations the reference applies, so each array is named by the reference's own stage of the same
  arguments; only the column of reciprocals has no counterpart there. Narrowing a float format is the identity on extended
  reals. Region 0's output is then the first layer of Cert.Fraud — a sum times the reciprocal of a clamped count is the
  sum divided by the clamped count, for every extended real — region 1's output the scores, and the result is
  Cert.Fraud.target of the arguments.
-/
import proofs.«101540_j77687368450080_2_alg».proof.Proof.KIRun
import proofs.«101540_j77687368450080_2_alg».proof.Proof.KIValue0
import proofs.«101540_j77687368450080_2_alg».proof.Proof.KIValue1
import proofs.«101540_j77687368450080_2_alg».proof.Proof.Target
import proofs.«101540_j77687368450080_2_alg».proof.Proof.LibMeanScale

set_option maxRecDepth 16384

noncomputable section

namespace Cert.KernelIdeal.Regions

open Cert.KernelIdeal Cert.KernelIdeal.Gen
open Idealize.ShloMosaic Idealize.ShloMosaic.TcCoe Idealize.ShloMosaic.StableHlo Idealize.ShloMosaic.ValueIdx
open Idealize.ShloMosaic.Pipeline (Dat)
open Idealize.SL Idealize.SL.Sem Cert.Sage Cert.Fraud

variable (m : (ℓ : Loc nD τ sig) → Buf (Elt Ideal) ℓ)

/-! ## Buffers the items of @main leave alone -/

theorem launch_of (c : Dev nD) (r : Ref sig .tc) (h : r ∉ hostOps0_W) : W1 m c (Proc.devRef .tc r) = m ((c : Thread nD τ).loc r) :=
  StableHlo.after_of_writes_sub hostOps0 _ hostOps0_writes h
theorem past_region0 (c : Dev nD) (r : Ref sig .tc) (hb : ∀ w, Pipeline.arrRef spec0 w ≠ r) :
    W2 m c (Proc.devRef .tc r) = W1 m c (Proc.devRef .tc r) := W2_of_ne m c r hb
theorem past_stretch1 (c : Dev nD) (r : Ref sig .tc) (h : r ∉ hostOps1_W) : W3 m c (Proc.devRef .tc r) = W2 m c (Proc.devRef .tc r) :=
  StableHlo.after_of_writes_sub hostOps1 _ hostOps1_writes h

/-! ## What the first host stretch makes -/

set_option maxHeartbeats 4000000 in
theorem entry_feat (c : Dev nD) :
    W1 m c (Proc.devRef .tc main_v22) = Cert.ReferenceIdeal.Read.val_main_v22 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps0 (W0 m c) (Proc.devRef .tc main_v22) = _
  dsimp only [hostOps0]
  after_results_simp
  rfl

set_option maxHeartbeats 4000000 in
theorem entry_sums (c : Dev nD) :
    W1 m c (Proc.devRef .tc main_v41) = agg (m ((c : Thread nD τ).loc main_arg1)) (feats (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps0 (W0 m c) (Proc.devRef .tc main_v41) = _
  dsimp only [hostOps0]
  after_results_simp
  rfl

set_option maxHeartbeats 4000000 in
theorem entry_recip (c : Dev nD) :
    W1 m c (Proc.devRef .tc main_v31)
      = shapeCast S100000x1 (Host.divf (F := Ideal) (φ := .f32) (Cert.ReferenceIdeal.Read.val_main_v37 (F := Ideal))
            (maximumf (F := Ideal) (φ := .f32) (Cert.ReferenceIdeal.Read.val_main_v36 (F := Ideal) (m ((c : Thread nD τ).loc main_arg1))) (Cert.ReferenceIdeal.Read.val_main_v37 (F := Ideal))))
          shapeCasts_S100000_S100000x1 := by
  show StableHlo.after hostOps0 (W0 m c) (Proc.devRef .tc main_v31) = _
  dsimp only [hostOps0]
  after_results_simp
  rfl

set_option maxHeartbeats 4000000 in
theorem entry_src (c : Dev nD) : W1 m c (Proc.devRef .tc main_v1) = Cert.ReferenceIdeal.Read.val_main_v1 (F := Ideal) (m ((c : Thread nD τ).loc main_arg1)) := by
  show StableHlo.after hostOps0 (W0 m c) (Proc.devRef .tc main_v1) = _
  dsimp only [hostOps0]
  after_results_simp
  rfl

set_option maxHeartbeats 4000000 in
theorem entry_dst (c : Dev nD) : W1 m c (Proc.devRef .tc main_v3) = Cert.ReferenceIdeal.Read.val_main_v3 (F := Ideal) (m ((c : Thread nD τ).loc main_arg1)) := by
  show StableHlo.after hostOps0 (W0 m c) (Proc.devRef .tc main_v3) = _
  dsimp only [hostOps0]
  after_results_simp
  rfl

set_option maxHeartbeats 4000000 in
theorem entry_wl (c : Dev nD) (i : S128x128.Idx) : W1 m c (Proc.devRef .tc main_v42) i = (m ((c : Thread nD τ).loc main_arg9)) i := by
  show StableHlo.after hostOps0 (W0 m c) (Proc.devRef .tc main_v42) i = _
  dsimp only [hostOps0]
  after_results_simp
  rfl

set_option maxHeartbeats 4000000 in
theorem entry_wr (c : Dev nD) (i : S128x128.Idx) : W1 m c (Proc.devRef .tc main_v43) i = (m ((c : Thread nD τ).loc main_arg11)) i := by
  show StableHlo.after hostOps0 (W0 m c) (Proc.devRef .tc main_v43) i = _
  dsimp only [hostOps0]
  after_results_simp
  rfl

/-! ## What the second host stretch makes, from any contents Y -/

set_option maxHeartbeats 4000000 in
theorem second_sums (Y : Valuation τ sig (Elt Ideal)) (x1 : (⟨Cert.ReferenceIdeal.S2x1600000, .i32⟩ : BufTy).Contents (Elt Ideal))
    (h1 : Y (Proc.devRef .tc main_v1) = Cert.ReferenceIdeal.Read.val_main_v1 (F := Ideal) x1) (h3 : Y (Proc.devRef .tc main_v3) = Cert.ReferenceIdeal.Read.val_main_v3 (F := Ideal) x1) :
    StableHlo.after hostOps1 Y (Proc.devRef .tc main_v54) = agg x1 (Y (Proc.devRef .tc main_v44)) := by
  dsimp only [hostOps1]
  after_results_simp
  rw [h1, h3]
  rfl

set_option maxHeartbeats 4000000 in
theorem second_wl (Y : Valuation τ sig (Elt Ideal)) (i : S128x128.Idx) :
    StableHlo.after hostOps1 Y (Proc.devRef .tc main_v55) i = Y (Proc.devRef .tc main_arg12) i := by
  dsimp only [hostOps1]
  after_results_simp
  rfl

set_option maxHeartbeats 4000000 in
theorem second_wr (Y : Valuation τ sig (Elt Ideal)) (i : S128x128.Idx) :
    StableHlo.after hostOps1 Y (Proc.devRef .tc main_v56) i = Y (Proc.devRef .tc main_arg14) i := by
  dsimp only [hostOps1]
  after_results_simp
  rfl

set_option maxHeartbeats 4000000 in
theorem second_wc (Y : Valuation τ sig (Elt Ideal)) (i : S128x1.Idx) :
    StableHlo.after hostOps1 Y (Proc.devRef .tc main_v57) i = Y (Proc.devRef .tc main_arg15) i := by
  dsimp only [hostOps1]
  after_results_simp
  rfl

/-! ## Region 0's output is the first layer -/

/-- The scaled sums are the means: at (p, k) the sum times the reciprocal of the clamped count of row p is the sum divided by
    that clamped count. -/
theorem scaled_is_mean (c : Dev nD) :
    rowScaled (V1 m c main_v41) (V1 m c main_v31)
      = meanOf (agg (m ((c : Thread nD τ).loc main_arg1)) (feats (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (counts (m ((c : Thread nD τ).loc main_arg1))) := by
  rw [show V1 m c main_v41 = _ from entry_sums m c, show V1 m c main_v31 = _ from entry_recip m c, counts_eq]
  exact rowScaled_recip _ _ _ ones_at shapeCasts_S100000_S100000x1

theorem first_layer (c : Dev nD) :
    hidden (V1 m) c = layer (agg (m ((c : Thread nD τ).loc main_arg1))) (counts (m ((c : Thread nD τ).loc main_arg1))) (feats (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11)) := by
  unfold hidden layer
  rw [scaled_is_mean]
  funext i
  obtain ⟨p, q, rfl⟩ : ∃ (p : Fin 100000) (q : Fin 128), i = ix2 p q := ⟨i 0, i 1, eq_ix2 i⟩
  refine reluLayer_block _ (V1 m c main_v22) _ (feats (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (V1 m c main_v42) (m ((c : Thread nD τ).loc main_arg9)) (V1 m c main_arg10) (m ((c : Thread nD τ).loc main_arg10))
    (V1 m c main_v43) (m ((c : Thread nD τ).loc main_arg11)) p p (fun k => rfl) (fun k => ?_) (fun k q => entry_wl m c _) (fun q => ?_) (fun k q => entry_wr m c _) q
  · exact congrFun (entry_feat m c) _
  · exact congrFun (launch_of m c main_arg10 (by decide)) _

/-! ## The arrays region 1 is entered with -/

theorem in1_feat (c : Dev nD) : W3 m c (Proc.devRef .tc main_v44) = hidden (V1 m) c :=
  (past_stretch1 m c main_v44 (by decide)).trans ((W2_arr m c 6).trans (final0 (V1 m) c))

theorem in1_recip (c : Dev nD) : W3 m c (Proc.devRef .tc main_v31) = W1 m c (Proc.devRef .tc main_v31) :=
  (past_stretch1 m c main_v31 (by decide)).trans
    ((W2_arr m c 1).trans (((dat0 (V1 m) c).arrAt_in 1 rfl _).trans (arr0 (V1 m) c 1)))

theorem in1_sums (c : Dev nD) : W3 m c (Proc.devRef .tc main_v54) = agg (m ((c : Thread nD τ).loc main_arg1)) (hidden (V1 m) c) := by
  show StableHlo.after hostOps1 (W2 m c) (Proc.devRef .tc main_v54) = _
  rw [second_sums (W2 m c) (m ((c : Thread nD τ).loc main_arg1)) ((past_region0 m c main_v1 (by decide)).trans (entry_src m c))
    ((past_region0 m c main_v3 (by decide)).trans (entry_dst m c))]
  exact congrArg (agg (m ((c : Thread nD τ).loc main_arg1))) ((W2_arr m c 6).trans (final0 (V1 m) c))

theorem arg_at2 (c : Dev nD) (r : Ref sig .tc) (hb : ∀ w, Pipeline.arrRef spec0 w ≠ r) (h : r ∉ hostOps0_W) :
    W2 m c (Proc.devRef .tc r) = m ((c : Thread nD τ).loc r) := (past_region0 m c r hb).trans (launch_of m c r h)

theorem in1_wl (c : Dev nD) (i : S128x128.Idx) : W3 m c (Proc.devRef .tc main_v55) i = (m ((c : Thread nD τ).loc main_arg12)) i :=
  (second_wl (W2 m c) i).trans (congrFun (arg_at2 m c main_arg12 (by decide) (by decide)) i)
theorem in1_wr (c : Dev nD) (i : S128x128.Idx) : W3 m c (Proc.devRef .tc main_v56) i = (m ((c : Thread nD τ).loc main_arg14)) i :=
  (second_wr (W2 m c) i).trans (congrFun (arg_at2 m c main_arg14 (by decide) (by decide)) i)
theorem in1_wc (c : Dev nD) (i : S128x1.Idx) : W3 m c (Proc.devRef .tc main_v57) i = (m ((c : Thread nD τ).loc main_arg15)) i :=
  (second_wc (W2 m c) i).trans (congrFun (arg_at2 m c main_arg15 (by decide) (by decide)) i)
theorem in1_b (c : Dev nD) : W3 m c (Proc.devRef .tc main_arg13) = (m ((c : Thread nD τ).loc main_arg13)) :=
  (past_stretch1 m c main_arg13 (by decide)).trans (arg_at2 m c main_arg13 (by decide) (by decide))
theorem in1_bc (c : Dev nD) : W3 m c (Proc.devRef .tc main_arg16) = (m ((c : Thread nD τ).loc main_arg16)) :=
  (past_stretch1 m c main_arg16 (by decide)).trans (arg_at2 m c main_arg16 (by decide) (by decide))

/-! ## Region 1's output is the scores -/

/-- The means of the second layer: the same law, the sums now taken over region 0's output. -/
theorem scaled_is_mean2 (c : Dev nD) :
    rowScaled (V3 m c main_v54) (V3 m c main_v31)
      = meanOf (agg (m ((c : Thread nD τ).loc main_arg1)) (hidden (V1 m) c)) (counts (m ((c : Thread nD τ).loc main_arg1))) := by
  rw [show V3 m c main_v54 = _ from in1_sums m c, show V3 m c main_v31 = _ from (in1_recip m c).trans (entry_recip m c), counts_eq]
  exact rowScaled_recip _ _ _ ones_at shapeCasts_S100000_S100000x1

theorem second_layer (c : Dev nD) :
    hidden2 (V3 m) c = layer (agg (m ((c : Thread nD τ).loc main_arg1))) (counts (m ((c : Thread nD τ).loc main_arg1))) (hidden (V1 m) c) (m ((c : Thread nD τ).loc main_arg12)) (m ((c : Thread nD τ).loc main_arg13)) (m ((c : Thread nD τ).loc main_arg14)) := by
  unfold hidden2 layer
  rw [scaled_is_mean2]
  funext i
  obtain ⟨p, q, rfl⟩ : ∃ (p : Fin 100000) (q : Fin 128), i = ix2 p q := ⟨i 0, i 1, eq_ix2 i⟩
  refine reluLayer_block _ (V3 m c main_v44) _ (hidden (V1 m) c) (V3 m c main_v55) (m ((c : Thread nD τ).loc main_arg12)) (V3 m c main_arg13) (m ((c : Thread nD τ).loc main_arg13))
    (V3 m c main_v56) (m ((c : Thread nD τ).loc main_arg14)) p p (fun k => rfl) (fun k => ?_) (fun k q => in1_wl m c _) (fun q => ?_) (fun k q => in1_wr m c _) q
  · exact congrFun (in1_feat m c) _
  · exact congrFun (in1_b m c) _

/-- The result array after the run: the target function of the launch arguments. -/
theorem result_value (c : Dev nD) :
    W4 m c (Proc.devRef .tc main_v58) = target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W4_arr m c 8).trans ((final1 (V3 m) c).trans ?_)
  unfold scores target detector
  rw [second_layer, first_layer]
  funext i
  show Ideal.logistic (logitAt _ (V3 m c main_v57) (V3 m c main_arg16) (i 0)) = Ideal.logistic (logitAt _ (m ((c : Thread nD τ).loc main_arg15)) (m ((c : Thread nD τ).loc main_arg16)) (i 0))
  refine congrArg Ideal.logistic (logitAt_block _ _ (V3 m c main_v57) (m ((c : Thread nD τ).loc main_arg15)) (V3 m c main_arg16) (m ((c : Thread nD τ).loc main_arg16)) (i 0) (i 0)
    (fun k => rfl) (fun k => in1_wc m c _) (congrFun (in1_bc m c) _))

end Cert.KernelIdeal.Regions

end
-- ==== Proof.LibMoments.lean ====
/-
  GENERAL lemmas on the extended reals with the exact ("ideal") float operations: entries that are real
  numbers, the quotient by a nonzero real, a few float literals, and the two formulas for a variance.

  On the extended reals a difference of infinities is a junk value, so E[x²] − E[x]² and E[(x − E[x])²] agree
  only where the entries are real numbers. The predicate IsR x says "x is (the image of) a real number"; it is
  closed under the ring operations, finite sums, max, if-then-else and the quotient by a nonzero real, and on
  such entries every identity below is the identity of real numbers transported along the inclusion ℝ → EReal.
-/
import Mathlib.Data.EReal.Inv
import Mathlib.Analysis.SpecialFunctions.Pow.Real
import Mathlib.Algebra.BigOperators.Group.Finset.Basic
import Mathlib.Algebra.BigOperators.Fin
import Mathlib.Tactic.Ring
import Mathlib.Tactic.Linarith
import Mathlib.Tactic.FieldSimp
import Mathlib.Tactic.Positivity
import Idealize.ShloMosaic.PureOps.Ideal

noncomputable section

namespace Cert.LibMoments

open Idealize.ShloMosaic
open scoped BigOperators

/-! ## Entries that are real numbers -/

/-- The extended real x is a real number. -/
def IsR (x : EReal) : Prop := ∃ r : ℝ, x = (r : EReal)

theorem IsR.coe (r : ℝ) : IsR (r : EReal) := ⟨r, rfl⟩

theorem IsR_zero : IsR 0 := ⟨0, EReal.coe_zero.symm⟩

theorem IsR_one : IsR 1 := ⟨1, EReal.coe_one.symm⟩

theorem IsR.ne_top {x : EReal} (hx : IsR x) : x ≠ ⊤ := by
  obtain ⟨a, rfl⟩ := hx; exact EReal.coe_ne_top a

theorem IsR.ne_bot {x : EReal} (hx : IsR x) : x ≠ ⊥ := by
  obtain ⟨a, rfl⟩ := hx; exact EReal.coe_ne_bot a

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- The inclusion of the reals commutes with finite sums. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real entries is a real entry. -/
theorem IsR.finset_sum {ι : Type*} (s : Finset ι) (f : ι → EReal) (h : ∀ i ∈ s, IsR (f i)) :
    IsR (∑ i ∈ s, f i) := by
  classical
  induction s using Finset.induction_on with
  | empty => simpa using IsR_zero
  | insert a s ha ih =>
    rw [Finset.sum_insert ha]
    exact (h a (Finset.mem_insert_self a s)).add (ih fun i hi => h i (Finset.mem_insert_of_mem hi))

theorem IsR.sum {ι : Type*} [Fintype ι] (f : ι → EReal) (h : ∀ i, IsR (f i)) : IsR (∑ i, f i) :=
  IsR.finset_sum Finset.univ f fun i _ => h i

theorem IsR.max {x y : EReal} (hx : IsR x) (hy : IsR y) : IsR (max x y) := by
  rcases le_total x y with h | h
  · rw [max_eq_right h]; exact hy
  · rw [max_eq_left h]; exact hx

theorem IsR.min {x y : EReal} (hx : IsR x) (hy : IsR y) : IsR (min x y) := by
  rcases le_total x y with h | h
  · rw [min_eq_left h]; exact hx
  · rw [min_eq_right h]; exact hy

theorem IsR.ite {p : Prop} [Decidable p] {x y : EReal} (hx : IsR x) (hy : IsR y) :
    IsR (if p then x else y) := by
  split
  · exact hx
  · exact hy

/-- The quotient of a real by a nonzero real, read as extended reals, is the real quotient. -/
theorem div_coe_coe (a b : ℝ) (hb : b ≠ 0) : Ideal.div (a : EReal) (b : EReal) = ((a / b : ℝ) : EReal) := by
  rw [Ideal.div_coe hb, ← EReal.coe_mul, mul_one_div]

theorem IsR.div_real {x : EReal} (hx : IsR x) (c : EReal) (hc : IsR c) (hc0 : c ≠ 0) : IsR (Ideal.div x c) := by
  obtain ⟨a, rfl⟩ := hx; obtain ⟨b, rfl⟩ := hc
  have hb : b ≠ 0 := fun h => hc0 (by rw [h, EReal.coe_zero])
  exact ⟨a / b, div_coe_coe a b hb⟩

/-! ## The quotient as a product with the reciprocal; max x 1 -/

/-- x * (1 / c) = x / c for every nonzero divisor, the infinities included. -/
theorem mul_one_div (x c : EReal) (hc : c ≠ 0) : x * Ideal.div 1 c = Ideal.div x c := by
  rw [Ideal.div, Ideal.div, if_neg hc, if_neg hc, one_mul]

theorem max_one_ne_zero (x : EReal) : max x 1 ≠ 0 :=
  ne_of_gt (lt_of_lt_of_le zero_lt_one (le_max_right x 1))

theorem isR_max_one {x : EReal} (hx : IsR x) : IsR (max x 1) := hx.max IsR_one

/-! ## Float literals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## The two formulas for a variance

  For real numbers x₁ … xₙ with mean m = (∑ x) / n:  (∑ (x − m)²) / n = (∑ x²) / n − m².
  Expand the square: ∑ (x − m)² = ∑ x² − 2 m ∑ x + n m², and ∑ x = n m. -/

/-- The identity on the reals, with the sum of the entries named S. -/
theorem real_variance (n : ℕ) (P : Fin n → ℝ) (N S : ℝ) (hn : (n : ℝ) = N) (hN : N ≠ 0) (hS : ∑ q, P q = S) :
    (∑ p, (P p - S / N) * (P p - S / N)) / N = (∑ p, P p * P p) / N - S / N * (S / N) := by
  have h1 : ∀ p, (P p - S / N) * (P p - S / N) = P p * P p - 2 * (S / N) * P p + S / N * (S / N) :=
    fun p => by ring
  simp only [h1]
  rw [Finset.sum_add_distrib, Finset.sum_sub_distrib, ← Finset.mul_sum, hS, Finset.sum_const, Finset.card_univ,
    Fintype.card_fin, nsmul_eq_mul, hn]
  field_simp
  ring

/-- The identity on the extended reals, for entries that are images of reals: the mean of the squared deviations
    from the mean is the mean of the squares minus the square of the mean. -/
theorem variance_coe (n : ℕ) (P : Fin n → ℝ) (N : ℝ) (hn : (n : ℝ) = N) (hN : N ≠ 0) :
    Ideal.div (∑ p, (((P p : ℝ) : EReal) - Ideal.div (∑ q, ((P q : ℝ) : EReal)) (N : EReal))
        * (((P p : ℝ) : EReal) - Ideal.div (∑ q, ((P q : ℝ) : EReal)) (N : EReal))) (N : EReal)
      = Ideal.div (∑ p, ((P p : ℝ) : EReal) * ((P p : ℝ) : EReal)) (N : EReal)
        - Ideal.div (∑ q, ((P q : ℝ) : EReal)) (N : EReal) * Ideal.div (∑ q, ((P q : ℝ) : EReal)) (N : EReal) := by
  have hμ : Ideal.div (∑ q, ((P q : ℝ) : EReal)) (N : EReal) = (((∑ q, P q) / N : ℝ) : EReal) := by
    rw [coe_finset_sum, div_coe_coe _ _ hN]
  rw [hμ]
  have hL : ∀ p, (((P p : ℝ) : EReal) - (((∑ q, P q) / N : ℝ) : EReal)) * (((P p : ℝ) : EReal) - (((∑ q, P q) / N : ℝ) : EReal))
      = (((P p - (∑ q, P q) / N) * (P p - (∑ q, P q) / N) : ℝ) : EReal) := fun p => by
    rw [← EReal.coe_sub, ← EReal.coe_mul]
  have hR : ∀ p, ((P p : ℝ) : EReal) * ((P p : ℝ) : EReal) = ((P p * P p : ℝ) : EReal) := fun p =>
    (EReal.coe_mul _ _).symm
  simp only [hL, hR]
  rw [coe_finset_sum, coe_finset_sum, div_coe_coe _ _ hN, div_coe_coe _ _ hN, ← EReal.coe_mul, ← EReal.coe_sub]
  exact congrArg _ (real_variance n P N _ hn hN rfl)

/-- The same for any family of extended reals every entry of which is a real number. -/
theorem variance_isR (n : ℕ) (X : Fin n → EReal) (hX : ∀ p, IsR (X p)) (N : ℝ) (hn : (n : ℝ) = N) (hN : N ≠ 0) :
    Ideal.div (∑ p, (X p - Ideal.div (∑ q, X q) (N : EReal)) * (X p - Ideal.div (∑ q, X q) (N : EReal))) (N : EReal)
      = Ideal.div (∑ p, X p * X p) (N : EReal)
        - Ideal.div (∑ q, X q) (N : EReal) * Ideal.div (∑ q, X q) (N : EReal) := by
  choose P hP using hX
  obtain rfl : X = fun p => ((P p : ℝ) : EReal) := funext hP
  exact variance_coe n P N hn hN

/-- The same with the divisor any extended real known to be the real N (a float literal, say). -/
theorem variance_isR_of_eq (n : ℕ) (X : Fin n → EReal) (hX : ∀ p, IsR (X p)) (c : EReal) (N : ℝ) (hc : c = (N : EReal))
    (hn : (n : ℝ) = N) (hN : N ≠ 0) :
    Ideal.div (∑ p, (X p - Ideal.div (∑ q, X q) c) * (X p - Ideal.div (∑ q, X q) c)) c
      = Ideal.div (∑ p, X p * X p) c - Ideal.div (∑ q, X q) c * Ideal.div (∑ q, X q) c := by
  subst hc; exact variance_isR n X hX N hn hN

/-! ## The reciprocal square root of a variance plus a positive real -/

/-- At a positive real the reciprocal square root is the real (√r)⁻¹. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- A mean of squares of reals over a positive N, plus a positive e, is a positive real; its reciprocal square
    root is a real. -/
theorem rsqrt_sq_mean_real (n : ℕ) (Y : Fin n → EReal) (hY : ∀ p, IsR (Y p)) (N : ℝ) (hN : 0 < N) (e : ℝ) (he : 0 < e) :
    IsR (Ideal.rsqrt (Ideal.div (∑ p, Y p * Y p) (N : EReal) + (e : EReal))) := by
  choose Q hQ using hY
  have hsum : ∑ p, Y p * Y p = ((∑ p, Q p * Q p : ℝ) : EReal) := by
    rw [← coe_finset_sum]
    exact Finset.sum_congr rfl fun p _ => by rw [hQ p, ← EReal.coe_mul]
  have hpos : 0 < (∑ p, Q p * Q p) / N + e :=
    add_pos_of_nonneg_of_pos (div_nonneg (Finset.sum_nonneg fun p _ => mul_self_nonneg _) hN.le) he
  rw [hsum, div_coe_coe _ _ hN.ne', ← EReal.coe_add, rsqrt_pos _ hpos]
  exact ⟨_, rfl⟩

/-- The reciprocal square root of (the mean squared deviation from the mean, plus a positive real) is a real. -/
theorem rsqrt_real (n : ℕ) (X : Fin n → EReal) (hX : ∀ p, IsR (X p)) (N : ℝ) (hN : 0 < N) (e : ℝ) (he : 0 < e) :
    IsR (Ideal.rsqrt (Ideal.div (∑ p, (X p - Ideal.div (∑ q, X q) (N : EReal)) * (X p - Ideal.div (∑ q, X q) (N : EReal)))
      (N : EReal) + (e : EReal))) :=
  rsqrt_sq_mean_real n _ (fun p => (hX p).sub ((IsR.sum X hX).div_real _ (IsR.coe N) (by exact_mod_cast hN.ne'))) N hN e he

end Cert.LibMoments

end
-- ==== Proof.LibExpLog.lean ====
/-
  GENERAL lemmas on the exponential, the logarithm and the logistic function of the extended reals, with the exact
  ("ideal") float operations. Nothing here mentions a program.

  * log_exp: log (exp x) = x for EVERY extended real x — exp sends -inf to 0 and log sends 0 back to -inf, +inf is fixed
    by both, and on a real number it is the real identity. (The other composition, exp (log x) = x, fails below 0.)
  * add_sub_cancel_isR: (a + b) - b = a when a and b are real numbers (with an infinite b the difference is a junk value).
  * logistic_spelled: 1 / (1 + exp (-x)), the 1 written as its f32 word and the quotient the extended reals' quotient, is
    the logistic function at every x, the infinities included.
  It imports LibMoments.lean of the same directory (the predicate "is a real number" and the f32 word of 1), so copy the two
  together.
-/
import Idealize.ShloMosaic.PureOps.Ideal
import proofs.«101540_j77687368450080_2_alg».proof.Proof.LibMoments

noncomputable section

namespace Cert.LibExpLog

open Idealize.ShloMosaic Cert.LibMoments

/-- The logarithm undoes the exponential on all of the extended reals. -/
theorem log_exp (x : EReal) : Ideal.log (Ideal.exp x) = x := by
  induction x using EReal.rec with
  | bot => rw [Ideal.exp_bot, ← EReal.coe_zero, Ideal.log_coe, if_pos le_rfl]
  | coe r => rw [Ideal.exp_coe, Ideal.log_coe, if_neg (not_le.mpr (Real.exp_pos r)), Real.log_exp]
  | top => rw [Ideal.exp_top, Ideal.log_top]

/-- Adding and then subtracting a real number leaves a real number as it was. -/
theorem add_sub_cancel_isR {a b : EReal} (ha : IsR a) (hb : IsR b) : a + b - b = a := by
  obtain ⟨x, rfl⟩ := ha
  obtain ⟨y, rfl⟩ := hb
  rw [← EReal.coe_add, ← EReal.coe_sub, add_sub_cancel_right]

/-- 1 / (1 + exp (-x)), written with the float word of 1, is the logistic function. -/
theorem logistic_spelled (x : EReal) :
    Ideal.div (Ideal.ofBits .f32 0x3F800000#32) (Ideal.ofBits .f32 0x3F800000#32 + Ideal.exp (-x)) = Ideal.logistic x := by
  rw [ofBits_one]; rfl

end Cert.LibExpLog

end
-- ==== Proof.RefTarget.lean ====
/-
  The reference's result is the shared target.

  The reference divides the neighbour sums of row p by the clamped count of row p (the count broadcast to a column and then
  along the columns), applies the first product plus the bias broadcast twice plus the second product, takes the larger
  of that and zero, does the same once more over the result, and ends with the product against the classifier column plus
  its bias, negated, through exp, plus one, under one: the logistic function spelled out. Read entry by entry through the
  generated stage lemmas, this is Cert.Fraud.detector at the reference's own neighbour sums, counts and node features; the
  only algebra is moving the bias past the second sum.
-/
import proofs.«101540_j77687368450080_2_alg».proof.Proof.Target
import proofs.«101540_j77687368450080_2_alg».proof.Proof.LibExpLog

set_option maxRecDepth 16384

noncomputable section

namespace Cert.Fraud.Ref

open Cert.ReferenceIdeal Cert.ReferenceIdeal.Read
open Idealize.ShloMosaic Idealize.ShloMosaic.ValueIdx Cert.Sage Cert.Fraud
open scoped BigOperators

/-! ## The index tables of the generated stage lemmas, at (p, q) -/

theorem l42 (p : Fin 100000) (q k : Fin 128) : lidx_main_v42 (ix2 p q) k = ix2 p k :=
  funext fun a => Fin.ext (by match a with | ⟨0, _⟩ => rfl | ⟨1, _⟩ => rfl)
theorem r42 (p : Fin 100000) (q k : Fin 128) : ridx_main_v42 (ix2 p q) k = ix2 k q :=
  funext fun a => Fin.ext (by match a with | ⟨0, _⟩ => rfl | ⟨1, _⟩ => rfl)
theorem l46 (p : Fin 100000) (q k : Fin 128) : lidx_main_v46 (ix2 p q) k = ix2 p k :=
  funext fun a => Fin.ext (by match a with | ⟨0, _⟩ => rfl | ⟨1, _⟩ => rfl)
theorem r46 (p : Fin 100000) (q k : Fin 128) : ridx_main_v46 (ix2 p q) k = ix2 k q :=
  funext fun a => Fin.ext (by match a with | ⟨0, _⟩ => rfl | ⟨1, _⟩ => rfl)
theorem l68 (p : Fin 100000) (q k : Fin 128) : lidx_main_v68 (ix2 p q) k = ix2 p k :=
  funext fun a => Fin.ext (by match a with | ⟨0, _⟩ => rfl | ⟨1, _⟩ => rfl)
theorem r68 (p : Fin 100000) (q k : Fin 128) : ridx_main_v68 (ix2 p q) k = ix2 k q :=
  funext fun a => Fin.ext (by match a with | ⟨0, _⟩ => rfl | ⟨1, _⟩ => rfl)
theorem l72 (p : Fin 100000) (q k : Fin 128) : lidx_main_v72 (ix2 p q) k = ix2 p k :=
  funext fun a => Fin.ext (by match a with | ⟨0, _⟩ => rfl | ⟨1, _⟩ => rfl)
theorem r72 (p : Fin 100000) (q k : Fin 128) : ridx_main_v72 (ix2 p q) k = ix2 k q :=
  funext fun a => Fin.ext (by match a with | ⟨0, _⟩ => rfl | ⟨1, _⟩ => rfl)
theorem l75 (p : Fin 100000) (k : Fin 128) : lidx_main_v75 (ix2 p (0 : Fin 1)) k = ix2 p k :=
  funext fun a => Fin.ext (by match a with | ⟨0, _⟩ => rfl | ⟨1, _⟩ => rfl)
theorem r75 (p : Fin 100000) (k : Fin 128) : ridx_main_v75 (ix2 p (0 : Fin 1)) k = ix2 k (0 : Fin 1) :=
  funext fun a => Fin.ext (by match a with | ⟨0, _⟩ => rfl | ⟨1, _⟩ => rfl)

theorem row_of1 (i : S100000x128.Idx) : idx_main_v39 (idx_main_v40 i) = ix1 (i 0) :=
  funext fun a => Fin.ext (by match a with | ⟨0, _⟩ => rfl)
theorem row_of2 (i : S100000x128.Idx) : idx_main_v65 (idx_main_v66 i) = ix1 (i 0) :=
  funext fun a => Fin.ext (by match a with | ⟨0, _⟩ => rfl)
theorem l42b (p : Fin 100000) (q : Fin 128) : idx_main_v43 (idx_main_v44 (ix2 p q)) = ix1 q :=
  funext fun a => Fin.ext (by match a with | ⟨0, _⟩ => rfl)
theorem l68b (p : Fin 100000) (q : Fin 128) : idx_main_v69 (idx_main_v70 (ix2 p q)) = ix1 q :=
  funext fun a => Fin.ext (by match a with | ⟨0, _⟩ => rfl)
theorem bias_of (i : S100000x1.Idx) : idx_main_v76 (idx_main_v77 i) = ix1 (0 : Fin 1) :=
  funext fun a => Fin.ext (by match a with | ⟨0, _⟩ => rfl)

/-! ## The two quotients are the means -/

theorem mean1 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) :
    val_main_v41 (F := Ideal) x0 x1 x2 x3 x4 x5 x6 x7 x8 = meanOf (agg x1 (feats x0 x2 x3 x4 x5 x6 x7 x8)) (counts x1) := by
  funext i
  rw [val_main_v41_apply, val_main_v40_apply, val_main_v39_apply, row_of1, agg_feats]
  rfl

theorem mean2 (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) :
    val_main_v67 (F := Ideal) x0 x1 x2 x3 x4 x5 x6 x7 x8 x9 x10 x11 = meanOf (agg x1 (val_main_v48 (F := Ideal) x0 x1 x2 x3 x4 x5 x6 x7 x8 x9 x10 x11)) (counts x1) := by
  funext i
  rw [val_main_v67_apply, val_main_v66_apply, val_main_v65_apply, row_of2, counts_again]
  unfold val_main_v58 val_main_v55
  rw [agg_again]
  rfl

/-! ## The two layers -/

theorem first (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) :
    val_main_v48 (F := Ideal) x0 x1 x2 x3 x4 x5 x6 x7 x8 x9 x10 x11 = layer (agg x1) (counts x1) (feats x0 x2 x3 x4 x5 x6 x7 x8) x9 x10 x11 := by
  funext i
  obtain ⟨p, q, rfl⟩ : ∃ (p : Fin 100000) (q : Fin 128), i = ix2 p q := ⟨i 0, i 1, eq_ix2 i⟩
  rw [val_main_v48_apply, val_main_v47_apply, val_main_v45_apply, val_main_v42_apply, val_main_v44_apply,
    val_main_v43_apply, val_main_v46_apply, val_main_call0_v0_apply, val_main_call0_cst_apply, l42b, mean1]
  simp only [l42, r42, l46, r46]
  show max ((∑ k : Fin 128, meanOf (agg x1 (feats x0 x2 x3 x4 x5 x6 x7 x8)) (counts x1) (ix2 p k) * x9 (ix2 k q)) + x10 (ix1 q)
        + ∑ k : Fin 128, val_main_v22 (F := Ideal) x0 x2 x3 x4 x5 x6 x7 x8 (ix2 p k) * x11 (ix2 k q)) (Ideal.ofBits .f32 0x00000000#32)
      = max (((∑ k : Fin 128, meanOf (agg x1 (feats x0 x2 x3 x4 x5 x6 x7 x8)) (counts x1) (ix2 p k) * x9 (ix2 k q))
        + ∑ k : Fin 128, val_main_v22 (F := Ideal) x0 x2 x3 x4 x5 x6 x7 x8 (ix2 p k) * x11 (ix2 k q)) + x10 (ix1 q)) (Ideal.ofBits .f32 0x00000000#32)
  rw [add_right_comm]

theorem second (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) :
    val_main_v74 (F := Ideal) x0 x1 x2 x3 x4 x5 x6 x7 x8 x9 x10 x11 x12 x13 x14 = layer (agg x1) (counts x1) (val_main_v48 (F := Ideal) x0 x1 x2 x3 x4 x5 x6 x7 x8 x9 x10 x11) x12 x13 x14 := by
  funext i
  obtain ⟨p, q, rfl⟩ : ∃ (p : Fin 100000) (q : Fin 128), i = ix2 p q := ⟨i 0, i 1, eq_ix2 i⟩
  rw [val_main_v74_apply, val_main_v73_apply, val_main_v71_apply, val_main_v68_apply, val_main_v70_apply,
    val_main_v69_apply, val_main_v72_apply, val_main_call1_v0_apply, val_main_call1_cst_apply, l68b, mean2]
  simp only [l68, r68, l72, r72]
  show max ((∑ k : Fin 128, meanOf (agg x1 (val_main_v48 (F := Ideal) x0 x1 x2 x3 x4 x5 x6 x7 x8 x9 x10 x11)) (counts x1) (ix2 p k) * x12 (ix2 k q)) + x13 (ix1 q)
        + ∑ k : Fin 128, val_main_v48 (F := Ideal) x0 x1 x2 x3 x4 x5 x6 x7 x8 x9 x10 x11 (ix2 p k) * x14 (ix2 k q)) (Ideal.ofBits .f32 0x00000000#32)
      = max (((∑ k : Fin 128, meanOf (agg x1 (val_main_v48 (F := Ideal) x0 x1 x2 x3 x4 x5 x6 x7 x8 x9 x10 x11)) (counts x1) (ix2 p k) * x12 (ix2 k q))
        + ∑ k : Fin 128, val_main_v48 (F := Ideal) x0 x1 x2 x3 x4 x5 x6 x7 x8 x9 x10 x11 (ix2 p k) * x14 (ix2 k q)) + x13 (ix1 q)) (Ideal.ofBits .f32 0x00000000#32)
  rw [add_right_comm]

/-! ## The result -/

theorem result (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S100000, .i32⟩ : BufTy).Contents (Elt Ideal)) (x3 : (⟨Cert.ReferenceIdeal.S100000, .i32⟩ : BufTy).Contents (Elt Ideal)) (x4 : (⟨Cert.ReferenceIdeal.S100000x4, .f32⟩ : BufTy).Contents (Elt Ideal)) (x5 : (⟨Cert.ReferenceIdeal.S10000x32, .f32⟩ : BufTy).Contents (Elt Ideal)) (x6 : (⟨Cert.ReferenceIdeal.S1000x16, .f32⟩ : BufTy).Contents (Elt Ideal)) (x7 : (⟨Cert.ReferenceIdeal.S4x16, .f32⟩ : BufTy).Contents (Elt Ideal)) (x8 : (⟨Cert.ReferenceIdeal.S16, .f32⟩ : BufTy).Contents (Elt Ideal)) (x9 : (⟨Cert.ReferenceIdeal.S128x128, .f32⟩ : BufTy).Contents (Elt Ideal)) (x10 : (⟨Cert.ReferenceIdeal.S128, .f32⟩ : BufTy).Contents (Elt Ideal)) (x11 : (⟨Cert.ReferenceIdeal.S128x128, .f32⟩ : BufTy).Contents (Elt Ideal)) (x12 : (⟨Cert.ReferenceIdeal.S128x128, .f32⟩ : BufTy).Contents (Elt Ideal)) (x13 : (⟨Cert.ReferenceIdeal.S128, .f32⟩ : BufTy).Contents (Elt Ideal)) (x14 : (⟨Cert.ReferenceIdeal.S128x128, .f32⟩ : BufTy).Contents (Elt Ideal)) (x15 : (⟨Cert.ReferenceIdeal.S128x1, .f32⟩ : BufTy).Contents (Elt Ideal)) (x16 : (⟨Cert.ReferenceIdeal.S1, .f32⟩ : BufTy).Contents (Elt Ideal)) :
    val_main_v84 (F := Ideal) x0 x1 x2 x3 x4 x5 x6 x7 x8 x9 x10 x11 x12 x13 x14 x15 x16 = target x0 x1 x2 x3 x4 x5 x6 x7 x8 x9 x10 x11 x12 x13 x14 x15 x16 := by
  funext i
  obtain ⟨p, u, rfl⟩ : ∃ (p : Fin 100000) (u : Fin 1), i = ix2 p u := ⟨i 0, i 1, eq_ix2 i⟩
  obtain rfl : u = 0 := Subsingleton.elim _ _
  rw [val_main_v84_apply, val_main_v83_apply, val_main_cst_15_apply, val_main_v82_apply, val_main_v81_apply, val_main_cst_14_apply,
    val_main_v80_apply, val_main_v79_apply, val_main_v78_apply, val_main_v75_apply, val_main_v77_apply, val_main_v76_apply, bias_of,
    second, first]
  simp only [l75, r75, Ideal.hostDivf_def, Ideal.addf_def, Ideal.hostUnary_exp_def, Ideal.hostNegf_def, Ideal.negf_def, Ideal.ofBits_def]
  rw [Cert.LibExpLog.logistic_spelled]
  unfold target detector score logitAt
  rfl

end Cert.Fraud.Ref

end
-- ==== Proof.lean ====
/-
  The certificate of the graph fraud detector: a two-layer mean-aggregating network with a logistic classifier over
  100000 nodes and 1600000 edges, whose dense layers run as two pipelined matrix-unit kernels over blocks of 5000 rows
  between host gathers and accumulating scatters, against the same network written with host operations only.

  FRAMES. Both kernel programs are a stretch of host operations, a kernel region, a second stretch, a second region. The
  contents of every unscoped buffer are followed through these four items (Proof/KRun.lean for the word-level program,
  Proof/KIRun.lean for the idealized one, over the per-point proof data of Proof/K*Region*.lean); the run ends with every
  buffer at the last stage of that fold, and no item writes an argument array. The reference's frame is its generated run.

  PRESERVES. The ideal pass rewrote nothing.

  ALGEBRAIC. On extended reals both programs end with one function of the arguments, Cert.Fraud.target
  (Proof/Spec.lean, Proof/Target.lean). The kernel program multiplies each row's neighbour sums by the reciprocal of the
  row's clamped edge count where the reference divides by the clamped count; the two agree for every extended real because a
  count clamped below by one is never zero (Proof/LibMeanScale.lean). The kernels' summand order (a·Wl + b) + x·Wr against
  the reference's, narrowing to the matrix unit's format, and the tiling into 20 row blocks change nothing at this instance;
  the kernel's logistic function is the reference's 1 / (1 + exp (−z)). No law used needs a finite entry, so the
  precondition is never opened. Kernel side: Proof/KIPayloads.lean, KIValue0.lean, KIValue1.lean, KIHost.lean; reference
  side: Proof/RefTarget.lean.
-/
import proofs.«101540_j77687368450080_2_alg».proof.Defs
import proofs.«101540_j77687368450080_2_alg».proof.Proof.Gen.Kernel
import proofs.«101540_j77687368450080_2_alg».proof.Proof.Gen.KernelIdeal
import proofs.«101540_j77687368450080_2_alg».proof.Proof.Gen.ReferenceIdeal
import proofs.«101540_j77687368450080_2_alg».proof.Proof.Gen.Pre_finite_inputs
import proofs.«101540_j77687368450080_2_alg».proof.Proof.KRun
import proofs.«101540_j77687368450080_2_alg».proof.Proof.KIHost
import proofs.«101540_j77687368450080_2_alg».proof.Proof.RefTarget
import Idealize.ShloMosaic.Adequacy
import Idealize.ShloMosaic.Init

noncomputable section

namespace Cert.Proof

open Idealize.ShloMosaic Idealize.SL.Sem

theorem frame_p : Cert.frame_Kernel := fun m ρ _ => Cert.Kernel.Regions.frame m ρ

theorem frame_pi : Cert.frame_KernelIdeal := fun m ρ _ => Cert.KernelIdeal.Regions.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The target of equal arguments is the same array. -/
theorem target_congr (x0 y0 : (⟨Cert.ReferenceIdeal.S100000x64, .f32⟩ : BufTy).Contents (Elt Ideal)) (x1 y1 : (⟨Cert.ReferenceIdeal.S2x1600000, .i32⟩ : BufTy).Contents (Elt Ideal)) (x2 y2 : (⟨Cert.ReferenceIdeal.S100000, .i32⟩ : BufTy).Contents (Elt Ideal)) (x3 y3 : (⟨Cert.ReferenceIdeal.S100000, .i32⟩ : BufTy).Contents (Elt Ideal)) (x4 y4 : (⟨Cert.ReferenceIdeal.S100000x4, .f32⟩ : BufTy).Contents (Elt Ideal)) (x5 y5 : (⟨Cert.ReferenceIdeal.S10000x32, .f32⟩ : BufTy).Contents (Elt Ideal)) (x6 y6 : (⟨Cert.ReferenceIdeal.S1000x16, .f32⟩ : BufTy).Contents (Elt Ideal)) (x7 y7 : (⟨Cert.ReferenceIdeal.S4x16, .f32⟩ : BufTy).Contents (Elt Ideal)) (x8 y8 : (⟨Cert.ReferenceIdeal.S16, .f32⟩ : BufTy).Contents (Elt Ideal)) (x9 y9 : (⟨Cert.ReferenceIdeal.S128x128, .f32⟩ : BufTy).Contents (Elt Ideal)) (x10 y10 : (⟨Cert.ReferenceIdeal.S128, .f32⟩ : BufTy).Contents (Elt Ideal)) (x11 y11 : (⟨Cert.ReferenceIdeal.S128x128, .f32⟩ : BufTy).Contents (Elt Ideal)) (x12 y12 : (⟨Cert.ReferenceIdeal.S128x128, .f32⟩ : BufTy).Contents (Elt Ideal)) (x13 y13 : (⟨Cert.ReferenceIdeal.S128, .f32⟩ : BufTy).Contents (Elt Ideal)) (x14 y14 : (⟨Cert.ReferenceIdeal.S128x128, .f32⟩ : BufTy).Contents (Elt Ideal)) (x15 y15 : (⟨Cert.ReferenceIdeal.S128x1, .f32⟩ : BufTy).Contents (Elt Ideal)) (x16 y16 : (⟨Cert.ReferenceIdeal.S1, .f32⟩ : BufTy).Contents (Elt Ideal))
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) :
    Cert.Fraud.target x0 x1 x2 x3 x4 x5 x6 x7 x8 x9 x10 x11 x12 x13 x14 x15 x16 = Cert.Fraud.target y0 y1 y2 y3 y4 y5 y6 y7 y8 y9 y10 y11 y12 y13 y14 y15 y16 := by
  subst h0 h1 h2 h3 h4 h5 h6 h7 h8 h9 h10 h11 h12 h13 h14 h15 h16
  rfl

/-- Both idealized programs end with the target function of the arguments, and leave the arguments as launched. -/
theorem algebraic : Cert.algebraic_KernelIdeal_ReferenceIdeal := by
  intro m ρ m' ρ' _ hagree
  refine ⟨fun c => Cert.Fraud.target (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c =>
      ⟨(h c _ (Cert.KernelIdeal.Regions.mem_uc Cert.KernelIdeal.main_v58 (by decide))).trans (Cert.KernelIdeal.Regions.result_value m c),
       (h c _ (Cert.KernelIdeal.Regions.mem_uc Cert.KernelIdeal.main_arg0 (by decide))).trans (Cert.KernelIdeal.Regions.kept_main_arg0 m c),
       (h c _ (Cert.KernelIdeal.Regions.mem_uc Cert.KernelIdeal.main_arg1 (by decide))).trans (Cert.KernelIdeal.Regions.kept_main_arg1 m c),
       (h c _ (Cert.KernelIdeal.Regions.mem_uc Cert.KernelIdeal.main_arg2 (by decide))).trans (Cert.KernelIdeal.Regions.kept_main_arg2 m c),
       (h c _ (Cert.KernelIdeal.Regions.mem_uc Cert.KernelIdeal.main_arg3 (by decide))).trans (Cert.KernelIdeal.Regions.kept_main_arg3 m c),
       (h c _ (Cert.KernelIdeal.Regions.mem_uc Cert.KernelIdeal.main_arg4 (by decide))).trans (Cert.KernelIdeal.Regions.kept_main_arg4 m c),
       (h c _ (Cert.KernelIdeal.Regions.mem_uc Cert.KernelIdeal.main_arg5 (by decide))).trans (Cert.KernelIdeal.Regions.kept_main_arg5 m c),
       (h c _ (Cert.KernelIdeal.Regions.mem_uc Cert.KernelIdeal.main_arg6 (by decide))).trans (Cert.KernelIdeal.Regions.kept_main_arg6 m c),
       (h c _ (Cert.KernelIdeal.Regions.mem_uc Cert.KernelIdeal.main_arg7 (by decide))).trans (Cert.KernelIdeal.Regions.kept_main_arg7 m c),
       (h c _ (Cert.KernelIdeal.Regions.mem_uc Cert.KernelIdeal.main_arg8 (by decide))).trans (Cert.KernelIdeal.Regions.kept_main_arg8 m c),
       (h c _ (Cert.KernelIdeal.Regions.mem_uc Cert.KernelIdeal.main_arg9 (by decide))).trans (Cert.KernelIdeal.Regions.kept_main_arg9 m c),
       (h c _ (Cert.KernelIdeal.Regions.mem_uc Cert.KernelIdeal.main_arg10 (by decide))).trans (Cert.KernelIdeal.Regions.kept_main_arg10 m c),
       (h c _ (Cert.KernelIdeal.Regions.mem_uc Cert.KernelIdeal.main_arg11 (by decide))).trans (Cert.KernelIdeal.Regions.kept_main_arg11 m c),
       (h c _ (Cert.KernelIdeal.Regions.mem_uc Cert.KernelIdeal.main_arg12 (by decide))).trans (Cert.KernelIdeal.Regions.kept_main_arg12 m c),
       (h c _ (Cert.KernelIdeal.Regions.mem_uc Cert.KernelIdeal.main_arg13 (by decide))).trans (Cert.KernelIdeal.Regions.kept_main_arg13 m c),
       (h c _ (Cert.KernelIdeal.Regions.mem_uc Cert.KernelIdeal.main_arg14 (by decide))).trans (Cert.KernelIdeal.Regions.kept_main_arg14 m c),
       (h c _ (Cert.KernelIdeal.Regions.mem_uc Cert.KernelIdeal.main_arg15 (by decide))).trans (Cert.KernelIdeal.Regions.kept_main_arg15 m c),
       (h c _ (Cert.KernelIdeal.Regions.mem_uc Cert.KernelIdeal.main_arg16 (by decide))).trans (Cert.KernelIdeal.Regions.kept_main_arg16 m c)⟩)
      (Cert.KernelIdeal.Regions.run_all m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16⟩ := hagree c
    exact (Cert.ReferenceIdeal.Read.val_main_v84_eq m' c).trans
      ((Cert.Fraud.Ref.result _ _ _ _ _ _ _ _ _ _ _ _ _ _ _ _ _).trans
        (target_congr _ _ _ _ _ _ _ _ _ _ _ _ _ _ _ _ _ _ _ _ _ _ _ _ _ _ _ _ _ _ _ _ _ _ e0 e1 e2 e3 e4 e5 e6 e7 e8 e9 e10 e11 e12 e13 e14 e15 e16))

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
